-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x50 : Shape := ⟨2, ![100000, 50]⟩
abbrev S2x1600000 : Shape := ⟨2, ![2, 1600000]⟩
abbrev S1600000 : Shape := ⟨1, ![1600000]⟩
abbrev S50x32 : Shape := ⟨2, ![50, 32]⟩
abbrev S32 : Shape := ⟨1, ![32]⟩
abbrev S32x5 : Shape := ⟨2, ![32, 5]⟩
abbrev S5 : Shape := ⟨1, ![5]⟩
abbrev S_ : Shape := ⟨0, ![]⟩

class Facts : Prop where
  bcast_S_S100000x50 : S_.BroadcastsInDim S100000x50 (![] : Fin 0 → Fin S100000x50.rank)
  reducesTo_S100000x50_S_d0_1 : S100000x50.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S50x32 : S_.BroadcastsInDim S50x32 (![] : Fin 0 → Fin S50x32.rank)
  reducesTo_S50x32_S_d0_1 : S50x32.ReducesTo [0, 1] S_
  bcast_S_S32 : S_.BroadcastsInDim S32 (![] : Fin 0 → Fin S32.rank)
  reducesTo_S32_S_d0 : S32.ReducesTo [0] S_
  bcast_S_S32x5 : S_.BroadcastsInDim S32x5 (![] : Fin 0 → Fin S32x5.rank)
  reducesTo_S32x5_S_d0_1 : S32x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg8 : FVec F S5 .f32) (main_v33 : IVec S_ 1) : IVec S_ 1 :=
  let main_v34 : FVec F S5 .f32 := Host.absf main_arg8
  let main_cst_12 : FVec F S_ .f32 := constant S_ .f32 0x7F800000#32
  let main_v35 : FVec F S5 .f32 := broadcastInDim S5 ![] bcast_S_S5 main_cst_12
  let main_v36 : IVec S5 1 := cmpf .olt main_v34 main_v35
  let main_c_13 : IVec S_ 1 := constantI S_ 1 1#1
  let main_v37 : IVec S_ 1 := (fun x v => Host.reduce IntOp.andi x v reducesTo_S5_S_d0 h_S_) main_v36 main_c_13
  let main_v38 : IVec S_ 1 := andi main_v33 main_v37
  main_v38

def fn_part1 {F : FTy → Type} [FloatOps F] (main_arg5 : FVec F S32 .f32) (main_arg6 : FVec F S32x5 .f32) (main_arg7 : FVec F S32x5 .f32) (main_arg8 : FVec F S5 .f32) (main_v13 : IVec S_ 1) (main_v16 : IVec S50x32 1) : IVec S_ 1 :=
  let main_c_5 : IVec S_ 1 := constantI S_ 1 1#1
  let main_v17 : IVec S_ 1 := (fun x v => Host.reduce IntOp.andi x v reducesTo_S50x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x5 .f32 := Host.absf main_arg6
  let main_cst_8 : FVec F S_ .f32 := constant S_ .f32 0x7F800000#32
  let main_v25 : FVec F S32x5 .f32 := broadcastInDim S32x5 ![] bcast_S_S32x5 main_cst_8
  let main_v26 : IVec S32x5 1 := cmpf .olt main_v24 main_v25
  let main_c_9 : IVec S_ 1 := constantI S_ 1 1#1
  let main_v27 : IVec S_ 1 := (fun x v => Host.reduce IntOp.andi x v reducesTo_S32x5_S_d0_1 h_S_) main_v26 main_c_9
  let main_v28 : IVec S_ 1 := andi main_v23 main_v27
  let main_v29 : FVec F S32x5 .f32 := Host.absf main_arg7
  let main_cst_10 : FVec F S_ .f32 := constant S_ .f32 0x7F800000#32
  let main_v30 : FVec F S32x5 .f32 := broadcastInDim S32x5 ![] bcast_S_S32x5 main_cst_10
  let main_v31 : IVec S32x5 1 := cmpf .olt main_v29 main_v30
  let main_c_11 : IVec S_ 1 := constantI S_ 1 1#1
  let main_v32 : IVec S_ 1 := (fun x v => Host.reduce IntOp.andi x v reducesTo_S32x5_S_d0_1 h_S_) main_v31 main_c_11
  let main_v33 : IVec S_ 1 := andi main_v28 main_v32
  fn_part2 (F := F) main_arg8 main_v33

def fn {F : FTy → Type} [FloatOps F] (main_arg0 : FVec F S100000x50 .f32) (main_arg1 : IVec S2x1600000 32) (main_arg2 : FVec F S1600000 .f32) (main_arg3 : FVec F S50x32 .f32) (main_arg4 : FVec F S50x32 .f32) (main_arg5 : FVec F S32 .f32) (main_arg6 : FVec F S32x5 .f32) (main_arg7 : FVec F S32x5 .f32) (main_arg8 : FVec F S5 .f32) : IVec S_ 1 :=
  let main_v0 : FVec F S100000x50 .f32 := Host.absf main_arg0
  let main_cst : FVec F S_ .f32 := constant S_ .f32 0x7F800000#32
  let main_v1 : FVec F S100000x50 .f32 := broadcastInDim S100000x50 ![] bcast_S_S100000x50 main_cst
  let main_v2 : IVec S100000x50 1 := cmpf .olt main_v0 main_v1
  let main_c : IVec S_ 1 := constantI S_ 1 1#1
  let main_v3 : IVec S_ 1 := (fun x v => Host.reduce IntOp.andi x v reducesTo_S100000x50_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S50x32 .f32 := Host.absf main_arg3
  let main_cst_2 : FVec F S_ .f32 := constant S_ .f32 0x7F800000#32
  let main_v10 : FVec F S50x32 .f32 := broadcastInDim S50x32 ![] bcast_S_S50x32 main_cst_2
  let main_v11 : IVec S50x32 1 := cmpf .olt main_v9 main_v10
  let main_c_3 : IVec S_ 1 := constantI S_ 1 1#1
  let main_v12 : IVec S_ 1 := (fun x v => Host.reduce IntOp.andi x v reducesTo_S50x32_S_d0_1 h_S_) main_v11 main_c_3
  let main_v13 : IVec S_ 1 := andi main_v8 main_v12
  let main_v14 : FVec F S50x32 .f32 := Host.absf main_arg4
  let main_cst_4 : FVec F S_ .f32 := constant S_ .f32 0x7F800000#32
  let main_v15 : FVec F S50x32 .f32 := broadcastInDim S50x32 ![] bcast_S_S50x32 main_cst_4
  let main_v16 : IVec S50x32 1 := cmpf .olt main_v14 main_v15
  fn_part1 (F := F) main_arg5 main_arg6 main_arg7 main_arg8 main_v13 main_v16
-- ==== Kernel.lean ====
abbrev S100000x50 : Shape := ⟨2, ![100000, 50]⟩
abbrev S2x1600000 : Shape := ⟨2, ![2, 1600000]⟩
abbrev S1600000 : Shape := ⟨1, ![1600000]⟩
abbrev S50x32 : Shape := ⟨2, ![50, 32]⟩
abbrev S32 : Shape := ⟨1, ![32]⟩
abbrev S32x5 : Shape := ⟨2, ![32, 5]⟩
abbrev S5 : Shape := ⟨1, ![5]⟩
abbrev S1x1600000 : Shape := ⟨2, ![1, 1600000]⟩
abbrev S_ : Shape := ⟨0, ![]⟩
abbrev S1600000x1 : Shape := ⟨2, ![1600000, 1]⟩
abbrev S1600000x50 : Shape := ⟨2, ![1600000, 50]⟩
abbrev S100000 : Shape := ⟨1, ![100000]⟩
abbrev S100000x1 : Shape := ⟨2, ![100000, 1]⟩
abbrev S1x32 : Shape := ⟨2, ![1, 32]⟩
abbrev S100000x32 : Shape := ⟨2, ![100000, 32]⟩
abbrev S10000x50 : Shape := ⟨2, ![10000, 50]⟩
abbrev S10000x1 : Shape := ⟨2, ![10000, 1]⟩
abbrev S10000x32 : Shape := ⟨2, ![10000, 32]⟩
abbrev S1600000x32 : Shape := ⟨2, ![1600000, 32]⟩
abbrev S1x5 : Shape := ⟨2, ![1, 5]⟩
abbrev S100000x5 : Shape := ⟨2, ![100000, 5]⟩
abbrev S10000x5 : Shape := ⟨2, ![10000, 5]⟩
abbrev S10000 : Shape := ⟨1, ![10000]⟩

abbrev nBuf : Space → Nat
  | .hbm => 53
  | .vmem => 22
  | .smem => 0
  | _ => 0

abbrev bufTy : (tb : Table) → Fin (tcTables nBuf tb) → BufTy
  | .hbm, ⟨0, _⟩ => ⟨S100000x50, .f32⟩
  | .hbm, ⟨1, _⟩ => ⟨S2x1600000, .i32⟩
  | .hbm, ⟨2, _⟩ => ⟨S1600000, .f32⟩
  | .hbm, ⟨3, _⟩ => ⟨S50x32, .f32⟩
  | .hbm, ⟨4, _⟩ => ⟨S50x32, .f32⟩
  | .hbm, ⟨5, _⟩ => ⟨S32, .f32⟩
  | .hbm, ⟨6, _⟩ => ⟨S32x5, .f32⟩
  | .hbm, ⟨7, _⟩ => ⟨S32x5, .f32⟩
  | .hbm, ⟨8, _⟩ => ⟨S5, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x50, .f32⟩
  | .hbm, ⟨22, _⟩ => ⟨S1600000x1, .f32⟩
  | .hbm, ⟨23, _⟩ => ⟨S1600000x50, .f32⟩
  | .hbm, ⟨24, _⟩ => ⟨S1600000x50, .f32⟩
  | .hbm, ⟨25, _⟩ => ⟨S_, .f32⟩
  | .hbm, ⟨26, _⟩ => ⟨S100000x50, .f32⟩
  | .hbm, ⟨27, _⟩ => ⟨S1600000x1, .i32⟩
  | .hbm, ⟨28, _⟩ => ⟨S100000x50, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S100000x1, .f32⟩
  | .hbm, ⟨36, _⟩ => ⟨S1x32, .f32⟩
  | .hbm, ⟨37, _⟩ => ⟨S100000x32, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x32, .f32⟩
  | .hbm, ⟨47, _⟩ => ⟨S_, .f32⟩
  | .hbm, ⟨48, _⟩ => ⟨S100000x32, .f32⟩
  | .hbm, ⟨49, _⟩ => ⟨S1600000x1, .i32⟩
  | .hbm, ⟨50, _⟩ => ⟨S100000x32, .f32⟩
  | .hbm, ⟨51, _⟩ => ⟨S1x5, .f32⟩
  | .hbm, ⟨52, _⟩ => ⟨S100000x5, .f32⟩
  | .local _ .vmem, ⟨0, _⟩ => ⟨S10000x50, .f32⟩
  | .local _ .vmem, ⟨1, _⟩ => ⟨S10000x50, .f32⟩
  | .local _ .vmem, ⟨2, _⟩ => ⟨S10000x1, .f32⟩
  | .local _ .vmem, ⟨3, _⟩ => ⟨S10000x1, .f32⟩
  | .local _ .vmem, ⟨4, _⟩ => ⟨S10000x50, .f32⟩
  | .local _ .vmem, ⟨5, _⟩ => ⟨S10000x50, .f32⟩
  | .local _ .vmem, ⟨6, _⟩ => ⟨S50x32, .f32⟩
  | .local _ .vmem, ⟨7, _⟩ => ⟨S50x32, .f32⟩
  | .local _ .vmem, ⟨8, _⟩ => ⟨S1x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S10000x1, .f32⟩
  | .local _ .vmem, ⟨14, _⟩ => ⟨S10000x1, .f32⟩
  | .local _ .vmem, ⟨15, _⟩ => ⟨S10000x32, .f32⟩
  | .local _ .vmem, ⟨16, _⟩ => ⟨S10000x32, .f32⟩
  | .local _ .vmem, ⟨17, _⟩ => ⟨S32x5, .f32⟩
  | .local _ .vmem, ⟨18, _⟩ => ⟨S32x5, .f32⟩
  | .local _ .vmem, ⟨19, _⟩ => ⟨S1x5, .f32⟩
  | .local _ .vmem, ⟨20, _⟩ => ⟨S10000x5, .f32⟩
  | .local _ .vmem, ⟨21, _⟩ => ⟨S10000x5, .f32⟩
  | _, _ => ⟨S100000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S50x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x5 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x5 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x50_0_1 : S1600000x1.BroadcastsInDim S1600000x50 (![0, 1] : Fin 2 → Fin S1600000x50.rank)
  bcast_S_S100000x50 : S_.BroadcastsInDim S100000x50 (![] : Fin 0 → Fin S100000x50.rank)
  bcast_S_S100000 : S_.BroadcastsInDim S100000 (![] : Fin 0 → Fin S100000.rank)
  shapeCasts_S100000_S100000x1 : S100000.ShapeCasts S100000x1
  shapeCasts_S32_S1x32 : S32.ShapeCasts S1x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x50_S10000x50_0_0 : ∀ a, (![0, 0] : Fin 2 → Nat) a + S10000x50.size a ≤ S10000x50.size a
  h_S10000x50 : 0 < S10000x50.numel
  shapeCasts_S10000x50_S10000x50 : S10000x50.ShapeCasts S10000x50
  broadcasts_S10000x1_S10000x50 : S10000x1.Broadcasts S10000x50
  bitsLt_bf16_f32 : FTy.bits .bf16 < FTy.bits .f32
  inb_S50x32_S50x32_0_0 : ∀ a, (![0, 0] : Fin 2 → Nat) a + S50x32.size a ≤ S50x32.size a
  h_S50x32 : 0 < S50x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  shapeCasts_S5_S1x5 : S5.ShapeCasts S1x5
  shapeCasts_S10000x32_S10000x32 : S10000x32.ShapeCasts S10000x32
  broadcasts_S10000x1_S10000x32 : S10000x1.Broadcasts S10000x32
  inb_S32x5_S32x5_0_0 : ∀ a, (![0, 0] : Fin 2 → Nat) a + S32x5.size a ≤ S32x5.size a
  h_S32x5 : 0 < S32x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S10000x5 : S1x5.Broadcasts S10000x5
  reduces_S10000x5_S10000 : S10000x5.Reduces [1] S10000
  shapeCasts_S10000_S10000x1 : S10000.ShapeCasts S10000x1
  broadcasts_S10000x1_S10000x5 : S10000x1.Broadcasts S10000x5
  inb_S10000x5_S10000x5_0_0 : ∀ a, (![0, 0] : Fin 2 → Nat) a + S10000x5.size a ≤ S10000x5.size a
  h_S10000x5 : 0 < S10000x5.numel
  gather_S100000x50_S1600000x1_S1600000x50_1_0_n_n_0_1_150_wf : GatherDims.WF S100000x50 S1600000x1 S1600000x50 [1] [0] [] [0] [] 1 ![1, 50]
  scatter_S100000x50_S1600000x1_S1600000x50_1_0_0_1_wf : ScatterDims.WF S100000x50 S1600000x1 S1600000x50 [1] [0] [0] 1
  scatter_S100000_S1600000x1_S1600000_n_0_0_1_wf : ScatterDims.WF S100000 S1600000x1 S1600000 [] [0] [0] 1
  dot_S10000x50_S50x32_S10000x32_1_0_0_1_n_n_wf : DotDims.WF S10000x50 S50x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x5_S10000x5_1_0_0_1_n_n_wf : DotDims.WF S10000x32 S32x5 S10000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x50.size a ≤ S100000x50.size a
  hwx0_0 : ∀ i : grid0.Coords, EltTy.bits .f32 = 32 ∨ (Rect.block (s := S100000x50) S10000x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x50.size a ≤ S100000x50.size a
  hwx0_2 : ∀ i : grid0.Coords, EltTy.bits .f32 = 32 ∨ (Rect.block (s := S100000x50) S10000x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x32.size a ≤ S50x32.size a
  hwx0_3 : ∀ i : grid0.Coords, EltTy.bits .f32 = 32 ∨ (Rect.block (s := S50x32) S50x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x32.size a ≤ S50x32.size a
  hwx0_4 : ∀ i : grid0.Coords, EltTy.bits .f32 = 32 ∨ (Rect.block (s := S50x32) S50x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x32.size a ≤ S100000x32.size a
  hwx0_6 : ∀ i : grid0.Coords, EltTy.bits .f32 = 32 ∨ (Rect.block (s := S100000x32) S10000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x5.size a ≤ S32x5.size a
  hwx1_3 : ∀ i : grid1.Coords, EltTy.bits .f32 = 32 ∨ (Rect.block (s := S32x5) S32x5.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x5.size a ≤ S32x5.size a
  hwx1_4 : ∀ i : grid1.Coords, EltTy.bits .f32 = 32 ∨ (Rect.block (s := S32x5) S32x5.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x5.size a ≤ S1x5.size a
  hwx1_5 : ∀ i : grid1.Coords, EltTy.bits .f32 = 32 ∨ (Rect.block (s := S1x5) S1x5.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x5.size a ≤ S100000x5.size a
  hwx1_6 : ∀ i : grid1.Coords, EltTy.bits .f32 = 32 ∨ (Rect.block (s := S100000x5) S10000x5.size (cc1_transform_6 i) (hinb1_6 i)).WholeWords (EltTy.packing .f32)

variable [Facts₀]

def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x50_S50x32_S10000x32_1_0_0_1_n_n : DotDims S10000x50 S50x32 S10000x32 where
  lhsContracting := [1]
  rhsContracting := [0]
  lhsNonContracting := [0]
  rhsNonContracting := [1]
  lhsBatch := []
  rhsBatch := []
  wf := dot_S10000x50_S50x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x5_S10000x5_1_0_0_1_n_n : DotDims S10000x32 S32x5 S10000x5 where
  lhsContracting := [1]
  rhsContracting := [0]
  lhsNonContracting := [0]
  rhsNonContracting := [1]
  lhsBatch := []
  rhsBatch := []
  wf := dot_S10000x32_S32x5_S10000x5_1_0_0_1_n_n_wf

abbrev win0_0 : Pipeline.Window sig grid0 :=
  Pipeline.Window.ofSpec (Memref.whole main_v16) S10000x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x50.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S50x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S50x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S10000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S10000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S32x5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x5.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S10000x5.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x50 : Shape := ⟨2, ![100000, 50]⟩
abbrev S2x1600000 : Shape := ⟨2, ![2, 1600000]⟩
abbrev S1600000 : Shape := ⟨1, ![1600000]⟩
abbrev S50x32 : Shape := ⟨2, ![50, 32]⟩
abbrev S32 : Shape := ⟨1, ![32]⟩
abbrev S32x5 : Shape := ⟨2, ![32, 5]⟩
abbrev S5 : Shape := ⟨1, ![5]⟩
abbrev S1x1600000 : Shape := ⟨2, ![1, 1600000]⟩
abbrev S_ : Shape := ⟨0, ![]⟩
abbrev S1600000x1 : Shape := ⟨2, ![1600000, 1]⟩
abbrev S1600000x50 : Shape := ⟨2, ![1600000, 50]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S1600000x32 : Shape := ⟨2, ![1600000, 32]⟩
abbrev S100000x5 : Shape := ⟨2, ![100000, 5]⟩
abbrev S1x5 : Shape := ⟨2, ![1, 5]⟩

abbrev nBuf : Space → Nat
  | .hbm => 96
  | .vmem => 0
  | .smem => 0
  | _ => 0

abbrev bufTy : (tb : Table) → Fin (tcTables nBuf tb) → BufTy
  | .hbm, ⟨0, _⟩ => ⟨S100000x50, .f32⟩
  | .hbm, ⟨1, _⟩ => ⟨S2x1600000, .i32⟩
  | .hbm, ⟨2, _⟩ => ⟨S1600000, .f32⟩
  | .hbm, ⟨3, _⟩ => ⟨S50x32, .f32⟩
  | .hbm, ⟨4, _⟩ => ⟨S50x32, .f32⟩
  | .hbm, ⟨5, _⟩ => ⟨S32, .f32⟩
  | .hbm, ⟨6, _⟩ => ⟨S32x5, .f32⟩
  | .hbm, ⟨7, _⟩ => ⟨S32x5, .f32⟩
  | .hbm, ⟨8, _⟩ => ⟨S5, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x50, .f32⟩
  | .hbm, ⟨22, _⟩ => ⟨S1600000x1, .f32⟩
  | .hbm, ⟨23, _⟩ => ⟨S1600000x50, .f32⟩
  | .hbm, ⟨24, _⟩ => ⟨S1600000x50, .f32⟩
  | .hbm, ⟨25, _⟩ => ⟨S_, .f32⟩
  | .hbm, ⟨26, _⟩ => ⟨S100000x50, .f32⟩
  | .hbm, ⟨27, _⟩ => ⟨S1600000x1, .i32⟩
  | .hbm, ⟨28, _⟩ => ⟨S100000x50, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x50, .f32⟩
  | .hbm, ⟨40, _⟩ => ⟨S100000x50, .f32⟩
  | .hbm, ⟨41, _⟩ => ⟨S100000x32, .f32⟩
  | .hbm, ⟨42, _⟩ => ⟨S100000x32, .f32⟩
  | .hbm, ⟨43, _⟩ => ⟨S100000x32, .f32⟩
  | .hbm, ⟨44, _⟩ => ⟨S1x32, .f32⟩
  | .hbm, ⟨45, _⟩ => ⟨S100000x32, .f32⟩
  | .hbm, ⟨46, _⟩ => ⟨S100000x32, .f32⟩
  | .hbm, ⟨47, _⟩ => ⟨S_, .f32⟩
  | .hbm, ⟨48, _⟩ => ⟨S100000x32, .f32⟩
  | .hbm, ⟨49, _⟩ => ⟨S100000x32, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x32, .f32⟩
  | .hbm, ⟨59, _⟩ => ⟨S_, .f32⟩
  | .hbm, ⟨60, _⟩ => ⟨S100000x32, .f32⟩
  | .hbm, ⟨61, _⟩ => ⟨S1600000x1, .i32⟩
  | .hbm, ⟨62, _⟩ => ⟨S100000x32, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x32, .f32⟩
  | .hbm, ⟨74, _⟩ => ⟨S100000x32, .f32⟩
  | .hbm, ⟨75, _⟩ => ⟨S100000x5, .f32⟩
  | .hbm, ⟨76, _⟩ => ⟨S100000x5, .f32⟩
  | .hbm, ⟨77, _⟩ => ⟨S100000x5, .f32⟩
  | .hbm, ⟨78, _⟩ => ⟨S1x5, .f32⟩
  | .hbm, ⟨79, _⟩ => ⟨S100000x5, .f32⟩
  | .hbm, ⟨80, _⟩ => ⟨S100000x5, .f32⟩
  | .hbm, ⟨81, _⟩ => ⟨S_, .f32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x5, .f32⟩
  | .hbm, ⟨88, _⟩ => ⟨S100000x5, .f32⟩
  | .hbm, ⟨89, _⟩ => ⟨S100000x5, .f32⟩
  | .hbm, ⟨90, _⟩ => ⟨S_, .f32⟩
  | .hbm, ⟨91, _⟩ => ⟨S100000, .f32⟩
  | .hbm, ⟨92, _⟩ => ⟨S100000x1, .f32⟩
  | .hbm, ⟨93, _⟩ => ⟨S100000x1, .f32⟩
  | .hbm, ⟨94, _⟩ => ⟨S100000x5, .f32⟩
  | .hbm, ⟨95, _⟩ => ⟨S100000x5, .f32⟩
  | _, _ => ⟨S100000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_cst : Ref sig .tc := ⟨.hbm, 47, rfl⟩
abbrev main_call0_v0 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v58 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x50_0_1 : S1600000x1.BroadcastsInDim S1600000x50 (![0, 1] : Fin 2 → Fin S1600000x50.rank)
  bcast_S_S100000x50 : S_.BroadcastsInDim S100000x50 (![] : Fin 0 → Fin S100000x50.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x50_0_1 : S100000x1.BroadcastsInDim S100000x50 (![0, 1] : Fin 2 → Fin S100000x50.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  reducesTo_S100000x5_S100000_d1 : S100000x5.ReducesTo [1] S100000
  h_S_ : 0 < S_.numel
  bcast_S100000x1_S100000x5_0_1 : S100000x1.BroadcastsInDim S100000x5 (![0, 1] : Fin 2 → Fin S100000x5.rank)
  gather_S100000x50_S1600000x1_S1600000x50_1_0_n_n_0_1_150_wf : GatherDims.WF S100000x50 S1600000x1 S1600000x50 [1] [0] [] [0] [] 1 ![1, 50]
  scatter_S100000x50_S1600000x1_S1600000x50_1_0_0_1_wf : ScatterDims.WF S100000x50 S1600000x1 S1600000x50 [1] [0] [0] 1
  scatter_S100000_S1600000x1_S1600000_n_0_0_1_wf : ScatterDims.WF S100000 S1600000x1 S1600000 [] [0] [0] 1
  dot_S100000x50_S50x32_S100000x32_1_0_0_1_n_n_wf : DotDims.WF S100000x50 S50x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x5_S100000x5_1_0_0_1_n_n_wf : DotDims.WF S100000x32 S32x5 S100000x5 [1] [0] [0] [1] [] []

variable [Facts₀]

def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x50_S50x32_S100000x32_1_0_0_1_n_n : DotDims S100000x50 S50x32 S100000x32 where
  lhsContracting := [1]
  rhsContracting := [0]
  lhsNonContracting := [0]
  rhsNonContracting := [1]
  lhsBatch := []
  rhsBatch := []
  wf := dot_S100000x50_S50x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x5_S100000x5_1_0_0_1_n_n : DotDims S100000x32 S32x5 S100000x5 where
  lhsContracting := [1]
  rhsContracting := [0]
  lhsNonContracting := [0]
  rhsNonContracting := [1]
  lhsBatch := []
  rhsBatch := []
  wf := dot_S100000x32_S32x5_S100000x5_1_0_0_1_n_n_wf

class Facts : Prop extends Facts₀ where

variable [Facts]
-- ==== Proof.ResultRun.lean ====
/-
  The idealized kernel's run with its result named.

  The program is four segments: the host operations that build the neighbour sums and counts, the first layer's
  pallas_call, the host operations that gather and sum the hidden rows, and the second layer's pallas_call. Every weakly
  fair execution goes through the four in order; at each boundary the contents of every buffer are a known function of
  the launch memory (the fold `W0 … W4` of the generated frame module). The run below is that module's launch over the
  four segments, read at one more buffer: besides the nine argument arrays, which end as launched, the result array ends
  at what the fold leaves in it after the last segment, `W4 m ρ c` at the result's buffer.
-/
import proofs.«149296_j19722489823529_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result array ends at the last
    boundary's contents of its buffer and the nine argument arrays end as launched. -/
theorem run_result : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.ResultRun

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibRowWise.lean ====
/-
  Operations that act on each row of an [m, n] array by itself, read at an entry, on the extended reals.

  For an array Z with m rows and n columns:
  * a length-n vector laid out as a [1, n] row and repeated down the m rows reads, at (a, b), the vector at b
    (`biasRow_apply`); a length-m vector laid out as an [m, 1] column and repeated across the n columns reads, at
    (a, b), the vector at a (`column_apply`);
  * reducing over the column axis inserts the column coordinate at position 1 (`lift_row`), so the host's maximum
    and sum over that axis read, at row a, the fold of max (the sum) over the row's n entries
    (`hostRowMax_apply`, `hostRowSum_apply`), and so do the vector reductions (`vecRowMax_apply`, `vecRowSum_apply`);
  * `logSoftmaxRow y q = (y q - max y) - log (Σ_k exp (y k - max y))` is the logarithm of the softmax of one row, and
    the host's chain of operations for it reads, at (a, b), that function of row a (`hostLogSoftmax_apply`);
  * the host's sum of an array and a bias row, clamped below at zero, reads at (a, b) max (Z(a, b) + v(b), 0)
    (`hostBiasRelu_apply`).
  Nothing here depends on m: a block of rows and the whole array are read by the same lemma.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowWise

open Idealize.ShloMosaic Idealize.ShloMosaic.ValueIdx

variable {α : Type}

/-- A vector as a row repeated down the rows, the host way, read at an entry. -/
theorem biasRow_apply {m n : ℕ} (v : (⟨1, ![n]⟩ : Shape).Idx → α)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    broadcastInDim ⟨2, ![m, n]⟩ ![0, 1] g2 (broadcastInDim ⟨2, ![1, n]⟩ ![1] g1 v) (ix2 a b) = v (ix1 b) := by
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

/-- An [m, 1] column repeated across the n columns, the host way, reads at (a, b) the column at row a. -/
theorem colSpread_apply {m n : ℕ} (w : (⟨2, ![m, 1]⟩ : Shape).Idx → α)
    (g2 : (⟨2, ![m, 1]⟩ : Shape).BroadcastsInDim ⟨2, ![m, n]⟩ ![0, 1]) (a : Fin m) (b : Fin n) :
    broadcastInDim ⟨2, ![m, n]⟩ ![0, 1] g2 w (ix2 a b) = w (ix2 a (0 : Fin 1)) := by
  have ha : a.val = if m = 1 then 0 else a.val := by
    split
    · have := a.isLt; omega
    · rfl
  have hk2 : ∀ ax : Fin 2, ((ix2 a (0 : Fin 1) : (⟨2, ![m, 1]⟩ : Shape).Idx) ax).val
      = if (⟨2, ![m, 1]⟩ : Shape).size ax = 1 then 0 else ((ix2 a b : (⟨2, ![m, n]⟩ : Shape).Idx) ((![0, 1] : Fin 2 → Fin 2) ax)).val := fun ax =>
    match ax with
    | ⟨0, _⟩ => ha
    | ⟨1, _⟩ => rfl
  rw [broadcastInDim_apply _ g2 _ (ix2 a b) (ix2 a (0 : Fin 1)) hk2]

/-- A length-m vector laid out as an [m, 1] column, the host way, reads at (a, 0) the vector at a. -/
theorem colLift_apply {m : ℕ} (v : (⟨1, ![m]⟩ : Shape).Idx → α)
    (g1 : (⟨1, ![m]⟩ : Shape).BroadcastsInDim ⟨2, ![m, 1]⟩ ![0]) (a : Fin m) :
    broadcastInDim ⟨2, ![m, 1]⟩ ![0] g1 v (ix2 a (0 : Fin 1)) = v (ix1 a) := by
  have ha : a.val = if m = 1 then 0 else a.val := by
    split
    · have := a.isLt; omega
    · rfl
  have hk1 : ∀ ax : Fin 1, ((ix1 a : (⟨1, ![m]⟩ : Shape).Idx) ax).val
      = if (⟨1, ![m]⟩ : Shape).size ax = 1 then 0 else ((ix2 a (0 : Fin 1) : (⟨2, ![m, 1]⟩ : Shape).Idx) ((![0] : Fin 1 → Fin 2) ax)).val := fun ax =>
    match ax with
    | ⟨0, _⟩ => ha
  rw [broadcastInDim_apply _ g1 v (ix2 a (0 : Fin 1)) (ix1 a) hk1]

/-- A vector as a column repeated across the columns, the host way, read at an entry. -/
theorem column_apply {m n : ℕ} (v : (⟨1, ![m]⟩ : Shape).Idx → α)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (broadcastInDim ⟨2, ![m, 1]⟩ ![0] g1 v) (ix2 a b) = v (ix1 a) := by
  rw [colSpread_apply, colLift_apply]

/-- Over row a, the index with column coordinate k inserted is (a, k). -/
theorem lift_row {m n : ℕ} (h : (⟨2, ![m, n]⟩ : Shape).Reduces [1] ⟨1, ![m]⟩) (a : Fin m)
    (k : Fin ((⟨2, ![m, n]⟩ : Shape).size 1)) :
    h.lift (ix1 a) k = ix2 a (k : Fin n) := by
  funext c
  apply Fin.ext
  rw [Shape.Reduces.lift_val]
  unfold Shape.Reduces.liftVal
  match c with
  | ⟨0, _⟩ => rfl
  | ⟨1, _⟩ => rfl

/-- The host's maximum over the column axis, at row a: the fold of max over the row's entries. -/
theorem hostRowMax_apply {m n : ℕ} (Z : FVec Ideal ⟨2, ![m, n]⟩ .f32) (init : BitVec 32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduce FloatOps.maximumf Z (constant ⟨0, ![]⟩ .f32 init) h' hu (ix1 a)
      = (Finset.univ : Finset (Fin n)).fold max (Ideal.ofBits .f32 init) (fun k => Z (ix2 a k)) := by
  rw [Host.reduce_eq_fold_single FloatOps.maximumf Z _ h' h hu (ix1 a)]
  have e : (Z ∘ h.lift (ix1 a)) = fun k : Fin n => Z (ix2 a k) := funext fun k => congrArg Z (lift_row h a k)
  rw [e]
  rfl

/-- The host's sum over the column axis from zero, at row a: the sum of the row's entries. -/
theorem hostRowSum_apply {m n : ℕ} (Z : FVec Ideal ⟨2, ![m, n]⟩ .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduceAdd Z (constant ⟨0, ![]⟩ .f32 0x00000000#32) h' hu (ix1 a) = ∑ k : Fin n, Z (ix2 a k) := by
  show Ideal.hostReduceAdd h' Z (Ideal.ofBits .f32 0x00000000#32) (ix1 a) = _
  rw [Ideal.hostReduceAdd_single h' h, Ideal.ofBits_zero_f32, zero_add]
  exact Finset.sum_congr rfl fun k _ => congrArg Z (lift_row h a k)

/-- A vector maximum over the column axis, at row a: the fold of max over the row's entries. -/
theorem vecRowMax_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.maximumf.neutral .f32 hφ) (a : Fin m) :
    multiReduction .maximumf [1] ⟨1, ![m]⟩ Z acc h hφ hacc (ix1 a)
      = (Finset.univ : Finset (Fin n)).fold max (Ideal.ofBits .f32 acc) (fun k => Z (ix2 a k)) := by
  rw [Ideal.multiReduction_maximumf_single]
  have e : (Z ∘ h.lift (ix1 a)) = fun k : Fin n => Z (ix2 a k) := funext fun k => congrArg Z (lift_row h a k)
  rw [e]
  rfl

/-- A vector sum over the column axis, at row a: the sum of the row's entries. -/
theorem vecRowSum_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.add.neutral .f32 hφ) (a : Fin m) :
    multiReduction .add [1] ⟨1, ![m]⟩ Z acc h hφ hacc (ix1 a) = ∑ k : Fin n, Z (ix2 a k) := by
  rw [Ideal.multiReduction_add_single]
  exact Finset.sum_congr rfl fun k _ => congrArg Z (lift_row h a k)

/-- The largest entry of a row (from -∞, kept as its f32 word). -/
def rowMax {n : ℕ} (y : Fin n → EReal) : EReal :=
  (Finset.univ : Finset (Fin n)).fold max (Ideal.ofBits .f32 0xFF800000#32) y

/-- The logarithm of the softmax of one row, at column q. -/
def logSoftmaxRow {n : ℕ} (y : Fin n → EReal) (q : Fin n) : EReal :=
  (y q - rowMax y) - Ideal.log (∑ k : Fin n, Ideal.exp (y k - rowMax y))

/-- The f32 word of -∞ is neutral for the maximum of extended reals. -/
theorem max_neg_inf (z : EReal) : max (Ideal.ofBits .f32 0xFF800000#32) z = z := by
  have hb : Ideal.ofBits .f32 0xFF800000#32 = (⊥ : EReal) := by simp [Ideal.ofBits, Ideal.ieee]
  rw [hb]; exact max_bot_left z

/-- The host's log-softmax over the column axis: the row maximum from -∞ (and once more against -∞), subtracted;
    the exponentials summed from zero; the logarithm of the sum subtracted. -/
def hostLogSoftmax {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (hu : 0 < (⟨0, ![]⟩ : Shape).numel)
    (Z : FVec Ideal ⟨2, ![m, n]⟩ .f32) : FVec Ideal ⟨2, ![m, n]⟩ .f32 :=
  subf
    (subf Z (broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu)))))
    (broadcastInDim ⟨2, ![m, n]⟩ ![0, 1] g2 (Host.log (broadcastInDim ⟨2, ![m, 1]⟩ ![0] g1
      (Host.reduceAdd
        (Host.exp (subf Z (broadcastInDim ⟨2, ![m, n]⟩ ![0, 1] g2 (broadcastInDim ⟨2, ![m, 1]⟩ ![0] g1
          (maximumf (broadcastInDim ⟨1, ![m]⟩ ![] gN (constant (F := Ideal) ⟨0, ![]⟩ .f32 0xFF800000#32))
            (Host.reduce FloatOps.maximumf Z (constant (F := Ideal) ⟨0, ![]⟩ .f32 0xFF800000#32) h' hu))))))
        (constant (F := Ideal) ⟨0, ![]⟩ .f32 0x00000000#32) h' hu))))

/-- The maximum the host subtracts, repeated across the columns, reads at (a, b) the largest entry of row a. -/
theorem hostShift_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu))) (ix2 a b)
      = rowMax (fun k => Z (ix2 a k)) := by
  rw [column_apply]
  show max (Ideal.ofBits .f32 0xFF800000#32)
      (Host.reduce FloatOps.maximumf Z (constant (F := Ideal) ⟨0, ![]⟩ .f32 0xFF800000#32) h' hu (ix1 a)) = _
  rw [max_neg_inf, hostRowMax_apply Z _ h' h hu a]
  rfl

/-- The logarithm of a column vector, taken on the [m, 1] column and then repeated across the columns, reads at
    (a, b) the logarithm of the vector at a. -/
theorem logColumn_apply {m n : ℕ} (S : FVec Ideal ⟨1, ![m]⟩ .f32)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (Host.log (broadcastInDim ⟨2, ![m, 1]⟩ ![0] g1 S)) (ix2 a b)
      = Ideal.log (S (ix1 a)) := by
  rw [colSpread_apply]
  show Ideal.log (broadcastInDim ⟨2, ![m, 1]⟩ ![0] g1 S (ix2 a (0 : Fin 1))) = _
  rw [colLift_apply]

/-- The host's log-softmax reads, at (a, b), the log-softmax of row a at column b. -/
theorem hostLogSoftmax_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    hostLogSoftmax gN g1 g2 h' hu Z (ix2 a b) = logSoftmaxRow (fun k => Z (ix2 a k)) b := by
  unfold hostLogSoftmax logSoftmaxRow
  show (Z (ix2 a b) - _) - _ = _
  rw [hostShift_apply gN g1 g2 h' h hu Z a b, logColumn_apply, hostRowSum_apply _ h' h hu a]
  refine congrArg (fun s => (Z (ix2 a b) - rowMax (fun k => Z (ix2 a k))) - Ideal.log s) ?_
  refine Finset.sum_congr rfl fun k _ => ?_
  show Ideal.exp (Z (ix2 a k) - _) = _
  rw [hostShift_apply gN g1 g2 h' h hu Z a k]

/-- The host's sum of an array and a bias row, clamped below at zero, at an entry. -/
theorem hostBiasRelu_apply {m n : ℕ} (Z : FVec Ideal ⟨2, ![m, n]⟩ .f32) (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (g0 : (⟨0, ![]⟩ : Shape).BroadcastsInDim ⟨2, ![m, n]⟩ ![]) (a : Fin m) (b : Fin n) :
    maximumf (addf Z (broadcastInDim ⟨2, ![m, n]⟩ ![0, 1] g2 (broadcastInDim ⟨2, ![1, n]⟩ ![1] g1 v)))
        (broadcastInDim ⟨2, ![m, n]⟩ ![] g0 (constant (F := Ideal) ⟨0, ![]⟩ .f32 0x00000000#32)) (ix2 a b)
      = max (Z (ix2 a b) + v (ix1 b)) (Ideal.ofBits .f32 0x00000000#32) := by
  show max (Z (ix2 a b) + broadcastInDim ⟨2, ![m, n]⟩ ![0, 1] g2 (broadcastInDim ⟨2, ![1, n]⟩ ![1] g1 v) (ix2 a b)) _ = _
  rw [biasRow_apply]
  rfl

end Cert.RowWise

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibBlockRows.lean ====
/-
  What a block of rows computes, read at an entry, on the extended reals.

  A block is an [m, n] array of rows cut out of a longer array. Three computations on a block:
  * the plain product of an [m, k] block with a [k, n] matrix, accumulated into zero, both operands first narrowed to
    a shorter float format (the identity on exact values): entry (p, q) is Σ_c x0(p, c) · x1(c, q) (`narrowedMatmul_apply`);
  * a one-row matrix repeated down the block and added, entry (p, q) being x0(p, q) + x1(0, q) (`biasBlock_apply`), and
    the same clamped below at zero (`biasReluBlock_apply`);
  * the vector chain of a log-softmax along the rows — the row maximum from -∞ laid out as a column and subtracted, the
    exponentials summed from zero, the logarithm of the column of sums subtracted —, entry (p, q) being the log-softmax
    of row p at column q (`vecLogSoftmax_apply`).
  Each entry depends on row p of the block alone, which is why a block of an array computes the array's rows.
-/
import Idealize.ShloMosaic.PureOps.Ideal.Laws
import Idealize.ShloMosaic.Lib.ValueIdx
import Idealize.ShloMosaic.Lib.ValueLayout
import Idealize.ShloMosaic.Lib.Pipeline.Value
import proofs.«149296_j19722489823529_2_alg».proof.Proof.LibPlainMatmul
import proofs.«149296_j19722489823529_2_alg».proof.Proof.LibColumnCast
import proofs.«149296_j19722489823529_2_alg».proof.Proof.LibColumnBroadcast
import proofs.«149296_j19722489823529_2_alg».proof.Proof.LibRowWise

noncomputable section

open scoped BigOperators

namespace Cert.BlockRows

open Idealize.ShloMosaic Idealize.ShloMosaic.ValueIdx Cert.RowWise

/-- Narrowing both operands changes no exact value: the product into zero reads Σ_c x0(p, c) · x1(c, q). -/
theorem narrowedMatmul_apply {m k n : ℕ} (x0 : FVec Ideal ⟨2, ![m, k]⟩ .f32) (x1 : FVec Ideal ⟨2, ![k, n]⟩ .f32)
    (ht : FTy.bf16.bits < FTy.f32.bits) (p : Fin m) (q : Fin n) :
    matmul (DotDims.plain m k n) none (truncf .bf16 x0 ht : FVec Ideal ⟨2, ![m, k]⟩ .bf16)
        (truncf .bf16 x1 ht : FVec Ideal ⟨2, ![k, n]⟩ .bf16) (constant ⟨2, ![m, n]⟩ .f32 0x00000000#32) (ix2 p q)
      = ∑ c : Fin k, x0 (ix2 p c) * x1 (ix2 c q) :=
  matmul_plain_zero_apply none _ _ p q

/-- A one-row matrix repeated down the block and added to it, at an entry. -/
theorem biasBlock_apply {m n : ℕ} (x0 : FVec Ideal ⟨2, ![m, n]⟩ .f32) (x1 : FVec Ideal ⟨2, ![1, n]⟩ .f32)
    (hc0 : (⟨2, ![m, n]⟩ : Shape).ShapeCasts ⟨2, ![m, n]⟩) (hc1 : (⟨2, ![1, n]⟩ : Shape).ShapeCasts ⟨2, ![1, n]⟩)
    (hb : (⟨2, ![1, n]⟩ : Shape).Broadcasts ⟨2, ![m, n]⟩) (p : Fin m) (q : Fin n) :
    addf (shapeCast ⟨2, ![m, n]⟩ x0 hc0) (broadcastTo ⟨2, ![m, n]⟩ (shapeCast ⟨2, ![1, n]⟩ x1 hc1) hb) (ix2 p q)
      = x0 (ix2 p q) + x1 (ix2 (0 : Fin 1) q) := by
  rw [shapeCast_self, shapeCast_self]
  show x0 (ix2 p q) + broadcastTo ⟨2, ![m, n]⟩ x1 hb (ix2 p q) = _
  rw [broadcastTo_1b_ab_apply]

/-- The same, clamped below at zero (zero kept as the all-zero f32 word). -/
theorem biasReluBlock_apply {m n : ℕ} (x0 : FVec Ideal ⟨2, ![m, n]⟩ .f32) (x1 : FVec Ideal ⟨2, ![1, n]⟩ .f32)
    (hc0 : (⟨2, ![m, n]⟩ : Shape).ShapeCasts ⟨2, ![m, n]⟩) (hc1 : (⟨2, ![1, n]⟩ : Shape).ShapeCasts ⟨2, ![1, n]⟩)
    (hb : (⟨2, ![1, n]⟩ : Shape).Broadcasts ⟨2, ![m, n]⟩) (p : Fin m) (q : Fin n) :
    maximumf (addf (shapeCast ⟨2, ![m, n]⟩ x0 hc0) (broadcastTo ⟨2, ![m, n]⟩ (shapeCast ⟨2, ![1, n]⟩ x1 hc1) hb))
        (broadcast ⟨2, ![m, n]⟩ (Scalar.ofBits .f32 0x00000000#32 : Ideal .f32)) (ix2 p q)
      = max (x0 (ix2 p q) + x1 (ix2 (0 : Fin 1) q)) (Ideal.ofBits .f32 0x00000000#32) := by
  show max (addf (shapeCast ⟨2, ![m, n]⟩ x0 hc0) (broadcastTo ⟨2, ![m, n]⟩ (shapeCast ⟨2, ![1, n]⟩ x1 hc1) hb) (ix2 p q)) _ = _
  rw [biasBlock_apply]
  rfl

/-- The vector log-softmax chain along the rows of Y reads, at (p, q), the log-softmax of row p at column q. -/
theorem vecLogSoftmax_apply {m n : ℕ} (Y : FVec Ideal ⟨2, ![m, n]⟩ .f32)
    (h : (⟨2, ![m, n]⟩ : Shape).Reduces [1] ⟨1, ![m]⟩) (hφ : FKind.Formats .f32)
    (hmax : (0xFF800000#32 : BitVec 32) = FKind.maximumf.neutral .f32 hφ)
    (hadd : (0x00000000#32 : BitVec 32) = FKind.add.neutral .f32 hφ)
    (hcol : (⟨1, ![m]⟩ : Shape).ShapeCasts ⟨2, ![m, 1]⟩) (hsp : (⟨2, ![m, 1]⟩ : Shape).Broadcasts ⟨2, ![m, n]⟩)
    (p : Fin m) (q : Fin n) :
    subf
        (subf Y (broadcastTo ⟨2, ![m, n]⟩ (shapeCast ⟨2, ![m, 1]⟩
          (multiReduction .maximumf [1] ⟨1, ![m]⟩ Y 0xFF800000#32 h hφ hmax) hcol) hsp))
        (broadcastTo ⟨2, ![m, n]⟩ (log (shapeCast ⟨2, ![m, 1]⟩
          (multiReduction .add [1] ⟨1, ![m]⟩
            (exp (subf Y (broadcastTo ⟨2, ![m, n]⟩ (shapeCast ⟨2, ![m, 1]⟩
              (multiReduction .maximumf [1] ⟨1, ![m]⟩ Y 0xFF800000#32 h hφ hmax) hcol) hsp)))
            0x00000000#32 h hφ hadd) hcol)) hsp) (ix2 p q)
      = logSoftmaxRow (fun k => Y (ix2 p k)) q := by
  have hshift : ∀ b : Fin n, broadcastTo ⟨2, ![m, n]⟩ (shapeCast ⟨2, ![m, 1]⟩
      (multiReduction .maximumf [1] ⟨1, ![m]⟩ Y 0xFF800000#32 h hφ hmax) hcol) hsp (ix2 p b)
        = rowMax (fun k => Y (ix2 p k)) := fun b => by
    rw [Cert.LibColumnBroadcast.broadcastTo_a1_ab_apply, Cert.LibColumnCast.shapeCast_a_a1_apply, vecRowMax_apply]
    rfl
  unfold logSoftmaxRow
  show (Y (ix2 p q) - _) - _ = _
  rw [hshift q, Cert.LibColumnBroadcast.broadcastTo_a1_ab_apply]
  show _ - Ideal.log (shapeCast ⟨2, ![m, 1]⟩ (multiReduction .add [1] ⟨1, ![m]⟩
      (exp (subf Y (broadcastTo ⟨2, ![m, n]⟩ (shapeCast ⟨2, ![m, 1]⟩
        (multiReduction .maximumf [1] ⟨1, ![m]⟩ Y 0xFF800000#32 h hφ hmax) hcol) hsp)))
      0x00000000#32 h hφ hadd) hcol (ix2 p (0 : Fin 1))) = _
  rw [Cert.LibColumnCast.shapeCast_a_a1_apply, vecRowSum_apply]
  refine congrArg (fun s => (Y (ix2 p q) - rowMax (fun k => Y (ix2 p k))) - Ideal.log s) ?_
  refine Finset.sum_congr rfl fun k _ => ?_
  show Ideal.exp (Y (ix2 p k) - _) = _
  rw [hshift k]

end Cert.BlockRows

end
-- ==== Proof.LibMeanDense.lean ====
/-
  A mean-aggregating dense layer, read at an entry, on the extended reals.

  Row p of the layer takes a row of summed neighbour features num(p, ·), the number of neighbours cnt(p), the row's own
  features x(p, ·), two [k, n] weight matrices Wl, Wr and a bias b, and produces, at column q,

      Σ_c (num(p, c) / max(cnt(p), 1)) · Wl(c, q)  +  Σ_c x(p, c) · Wr(c, q)  +  b(q)      (`entry`).

  The division is the exact one of the extended reals; the clamp of the count at one keeps a row with no neighbour at
  its (zero) sum instead of dividing by zero. Two spellings of the same entry:
  * on a block of m rows, with vector operations (`blockMeanDense_apply`): the count arrives as an [m, 1] column, is
    clamped, repeated across the k columns and divided into the sums; both products are accumulated into zero with
    their operands first narrowed to a shorter float format (the identity on exact values); the bias arrives as a
    one-row matrix repeated down the block;
  * on a whole array, with the host's operations (`hostMeanDense_apply`): the count is a length-m vector, clamped,
    lifted to a column and spread across the columns; the products are plain dot_generals; the bias a length-n vector
    lifted to a row and spread down the rows.
  Each entry depends on row p alone, which is why a block of rows computes the rows of the whole array.
-/
import Idealize.ShloMosaic.PureOps.Ideal.Laws
import Idealize.ShloMosaic.Lib.ValueIdx
import Idealize.ShloMosaic.Lib.ValueLayout
import Idealize.ShloMosaic.Lib.Pipeline.Value
import proofs.«149296_j19722489823529_2_alg».proof.Proof.LibPlainMatmul
import proofs.«149296_j19722489823529_2_alg».proof.Proof.LibPlainDot
import proofs.«149296_j19722489823529_2_alg».proof.Proof.LibColumnBroadcast
import proofs.«149296_j19722489823529_2_alg».proof.Proof.LibRowWise
import proofs.«149296_j19722489823529_2_alg».proof.Proof.LibBlockRows

noncomputable section

open scoped BigOperators

namespace Cert.MeanDense

open Idealize.ShloMosaic Idealize.ShloMosaic.ValueIdx Cert.RowWise Cert.BlockRows

/-- Column q of row p of the layer: the neighbour sums divided by the clamped count and contracted with the first
    weight column, plus the row's own features contracted with the second, plus the bias (one kept as its f32 word). -/
def entry {k : ℕ} (num : Fin k → EReal) (cnt : EReal) (x : Fin k → EReal) (wl wr : Fin k → EReal) (b : EReal) : EReal :=
  (∑ c : Fin k, Ideal.div (num c) (max cnt (Ideal.ofBits .f32 0x3F800000#32)) * wl c) + (∑ c : Fin k, x c * wr c) + b

/-- On a block: the sums divided by the count column clamped at one and repeated across the columns read, at (p, c),
    num(p, c) / max(cnt(p, 0), 1). -/
theorem blockMean_apply {m k : ℕ} (N : FVec Ideal ⟨2, ![m, k]⟩ .f32) (C : FVec Ideal ⟨2, ![m, 1]⟩ .f32)
    (hcN : (⟨2, ![m, k]⟩ : Shape).ShapeCasts ⟨2, ![m, k]⟩) (hcC : (⟨2, ![m, 1]⟩ : Shape).ShapeCasts ⟨2, ![m, 1]⟩)
    (hb : (⟨2, ![m, 1]⟩ : Shape).Broadcasts ⟨2, ![m, k]⟩) (p : Fin m) (c : Fin k) :
    divf (shapeCast ⟨2, ![m, k]⟩ N hcN)
        (broadcastTo ⟨2, ![m, k]⟩ (maximumf (shapeCast ⟨2, ![m, 1]⟩ C hcC)
          (broadcast ⟨2, ![m, 1]⟩ (Scalar.ofBits .f32 0x3F800000#32 : Ideal .f32))) hb) (ix2 p c)
      = Ideal.div (N (ix2 p c)) (max (C (ix2 p (0 : Fin 1))) (Ideal.ofBits .f32 0x3F800000#32)) := by
  rw [shapeCast_self, shapeCast_self]
  show Ideal.div (N (ix2 p c)) (broadcastTo ⟨2, ![m, k]⟩ (maximumf C
      (broadcast ⟨2, ![m, 1]⟩ (Scalar.ofBits .f32 0x3F800000#32 : Ideal .f32))) hb (ix2 p c)) = _
  rw [Cert.LibColumnBroadcast.broadcastTo_a1_ab_apply]
  rfl

/-- On a block: the layer's vector chain before its activation reads, at (p, q), the layer's entry of row p. `X` is
    the block of the rows' own features as the chain hands it to the narrowing. -/
theorem blockMeanDense_apply {m k n : ℕ} (N : FVec Ideal ⟨2, ![m, k]⟩ .f32) (C : FVec Ideal ⟨2, ![m, 1]⟩ .f32)
    (X : FVec Ideal ⟨2, ![m, k]⟩ .f32) (Wl Wr : FVec Ideal ⟨2, ![k, n]⟩ .f32) (B : FVec Ideal ⟨2, ![1, n]⟩ .f32)
    (hcN : (⟨2, ![m, k]⟩ : Shape).ShapeCasts ⟨2, ![m, k]⟩) (hcC : (⟨2, ![m, 1]⟩ : Shape).ShapeCasts ⟨2, ![m, 1]⟩)
    (hb : (⟨2, ![m, 1]⟩ : Shape).Broadcasts ⟨2, ![m, k]⟩) (ht : FTy.bf16.bits < FTy.f32.bits)
    (hcB : (⟨2, ![1, n]⟩ : Shape).ShapeCasts ⟨2, ![1, n]⟩) (hbB : (⟨2, ![1, n]⟩ : Shape).Broadcasts ⟨2, ![m, n]⟩)
    (p : Fin m) (q : Fin n) :
    addf
        (addf
          (matmul (DotDims.plain m k n) none
            (truncf .bf16 (divf (shapeCast ⟨2, ![m, k]⟩ N hcN)
              (broadcastTo ⟨2, ![m, k]⟩ (maximumf (shapeCast ⟨2, ![m, 1]⟩ C hcC)
                (broadcast ⟨2, ![m, 1]⟩ (Scalar.ofBits .f32 0x3F800000#32 : Ideal .f32))) hb)) ht
              : FVec Ideal ⟨2, ![m, k]⟩ .bf16)
            (truncf .bf16 Wl ht : FVec Ideal ⟨2, ![k, n]⟩ .bf16) (constant ⟨2, ![m, n]⟩ .f32 0x00000000#32))
          (matmul (DotDims.plain m k n) none (truncf .bf16 X ht : FVec Ideal ⟨2, ![m, k]⟩ .bf16)
            (truncf .bf16 Wr ht : FVec Ideal ⟨2, ![k, n]⟩ .bf16) (constant ⟨2, ![m, n]⟩ .f32 0x00000000#32)))
        (broadcastTo ⟨2, ![m, n]⟩ (shapeCast ⟨2, ![1, n]⟩ B hcB) hbB) (ix2 p q)
      = entry (fun c => N (ix2 p c)) (C (ix2 p (0 : Fin 1))) (fun c => X (ix2 p c))
          (fun c => Wl (ix2 c q)) (fun c => Wr (ix2 c q)) (B (ix2 (0 : Fin 1) q)) := by
  rw [shapeCast_self (v := B)]
  show (matmul (DotDims.plain m k n) none _ _ _ (ix2 p q) + matmul (DotDims.plain m k n) none _ _ _ (ix2 p q))
      + broadcastTo ⟨2, ![m, n]⟩ B hbB (ix2 p q) = _
  rw [narrowedMatmul_apply, narrowedMatmul_apply, broadcastTo_1b_ab_apply]
  unfold entry
  refine congrArg (fun s => s + (∑ c : Fin k, X (ix2 p c) * Wr (ix2 c q)) + B (ix2 (0 : Fin 1) q)) ?_
  refine Finset.sum_congr rfl fun c _ => ?_
  rw [blockMean_apply]

/-- On the host: the sums divided by the count vector clamped at one, lifted to a column and spread across the
    columns, read, at (p, c), num(p, c) / max(cnt(p), 1). -/
theorem hostMean_apply {m k : ℕ} (N : FVec Ideal ⟨2, ![m, k]⟩ .f32) (Cv : FVec Ideal ⟨1, ![m]⟩ .f32)
    (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, k]⟩ ![0, 1]) (p : Fin m) (c : Fin k) :
    Host.divf N (broadcastInDim ⟨2, ![m, k]⟩ ![0, 1] g2 (broadcastInDim ⟨2, ![m, 1]⟩ ![0] g1
        (maximumf Cv (broadcastInDim ⟨1, ![m]⟩ ![] gN (constant (F := Ideal) ⟨0, ![]⟩ .f32 0x3F800000#32))))) (ix2 p c)
      = Ideal.div (N (ix2 p c)) (max (Cv (ix1 p)) (Ideal.ofBits .f32 0x3F800000#32)) := by
  show Ideal.div (N (ix2 p c)) (broadcastInDim ⟨2, ![m, k]⟩ ![0, 1] g2 (broadcastInDim ⟨2, ![m, 1]⟩ ![0] g1
        (maximumf Cv (broadcastInDim ⟨1, ![m]⟩ ![] gN (constant (F := Ideal) ⟨0, ![]⟩ .f32 0x3F800000#32)))) (ix2 p c)) = _
  rw [column_apply]
  rfl

/-- On the host: the layer's operations before its activation read, at (p, q), the layer's entry of row p. -/
theorem hostMeanDense_apply {m k n : ℕ} (N : FVec Ideal ⟨2, ![m, k]⟩ .f32) (Cv : FVec Ideal ⟨1, ![m]⟩ .f32)
    (X : FVec Ideal ⟨2, ![m, k]⟩ .f32) (Wl Wr : FVec Ideal ⟨2, ![k, n]⟩ .f32) (b : FVec Ideal ⟨1, ![n]⟩ .f32)
    (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, k]⟩ ![0, 1])
    (r1 : (⟨1, ![n]⟩ : Shape).BroadcastsInDim ⟨2, ![1, n]⟩ ![1])
    (r2 : (⟨2, ![1, n]⟩ : Shape).BroadcastsInDim ⟨2, ![m, n]⟩ ![0, 1]) (p : Fin m) (q : Fin n) :
    addf
        (addf
          (Host.dotGeneral (DotDims.plain m k n) none
            (Host.divf N (broadcastInDim ⟨2, ![m, k]⟩ ![0, 1] g2 (broadcastInDim ⟨2, ![m, 1]⟩ ![0] g1
              (maximumf Cv (broadcastInDim ⟨1, ![m]⟩ ![] gN (constant (F := Ideal) ⟨0, ![]⟩ .f32 0x3F800000#32)))))) Wl)
          (Host.dotGeneral (DotDims.plain m k n) none X Wr))
        (broadcastInDim ⟨2, ![m, n]⟩ ![0, 1] r2 (broadcastInDim ⟨2, ![1, n]⟩ ![1] r1 b)) (ix2 p q)
      = entry (fun c => N (ix2 p c)) (Cv (ix1 p)) (fun c => X (ix2 p c))
          (fun c => Wl (ix2 c q)) (fun c => Wr (ix2 c q)) (b (ix1 q)) := by
  show (Host.dotGeneral (DotDims.plain m k n) none _ Wl (ix2 p q) + Host.dotGeneral (DotDims.plain m k n) none X Wr (ix2 p q))
      + broadcastInDim ⟨2, ![m, n]⟩ ![0, 1] r2 (broadcastInDim ⟨2, ![1, n]⟩ ![1] r1 b) (ix2 p q) = _
  rw [hostDotGeneral_plain_apply, hostDotGeneral_plain_apply, biasRow_apply]
  unfold entry
  refine congrArg (fun s => s + (∑ c : Fin k, X (ix2 p c) * Wr (ix2 c q)) + b (ix1 q)) ?_
  refine Finset.sum_congr rfl fun c _ => ?_
  rw [hostMean_apply]

end Cert.MeanDense

end
-- ==== Proof.LayerOneBody.lean ====
/-
  The first layer's body at an entry.

  On a block of 10000 rows the body divides the rows' summed neighbour features by the count column clamped at one,
  multiplies by the first weight matrix, adds the rows' own features times the second weight matrix and the bias row,
  and clamps at zero. At entry (p, q) that is max(entry, 0) with `Cert.MeanDense.entry` of row p of the block: the
  block's arithmetic is the mean-aggregating dense layer on the rows it holds.
-/
import proofs.«149296_j19722489823529_2_alg».proof.Proof.Gen.KernelIdeal.Skeleton
import proofs.«149296_j19722489823529_2_alg».proof.Proof.LibMeanDense

noncomputable section

open scoped BigOperators

namespace Cert.KernelIdeal.LayerOne

open Cert.KernelIdeal Cert.KernelIdeal.Gen Idealize.ShloMosaic Idealize.ShloMosaic.ValueIdx Cert.MeanDense

/-- The hidden feature q of a row: the layer's entry clamped below at zero (zero kept as its f32 word). -/
def relu (e : EReal) : EReal := max e (Ideal.ofBits .f32 0x00000000#32)

/-- The body's stored value at (p, q) is the clamped entry of row p of the blocks it loaded. -/
theorem payload_apply (cnt : Vec Ideal S10000x1 .f32) (num own : Vec Ideal S10000x50 .f32)
    (wl wr : Vec Ideal S50x32 .f32) (bias : Vec Ideal S1x32 .f32) (p : Fin 10000) (q : Fin 32) :
    k0_pay1 (F := Ideal) cnt num own wl wr bias (ix2 p q)
      = relu (entry (fun c => num (ix2 p c)) (cnt (ix2 p (0 : Fin 1))) (fun c => own (ix2 p c))
          (fun c => wl (ix2 c q)) (fun c => wr (ix2 c q)) (bias (ix2 (0 : Fin 1) q))) := by
  unfold k0_pay1 relu
  refine congrArg (fun s => max s (Ideal.ofBits .f32 0x00000000#32)) ?_
  exact blockMeanDense_apply (m := 10000) (k := 50) (n := 32) num cnt own wl wr bias _ _ _ _ _ _ p q

end Cert.KernelIdeal.LayerOne

end
-- ==== Proof.HiddenArray.lean ====
/-
  The first layer's output array.

  The pallas_call cuts the 100000 rows into ten blocks of 10000: at grid point t every row-blocked operand (the
  neighbour sums, the count column, the features, the output) shows rows t·10000 … t·10000 + 9999 and the two weight
  matrices and the bias row are shown whole. The body's value at (p, q) of the block depends on row p of its operands
  only, so what point t writes back is rows t·10000 … of ONE array, `hidden`: the clamped mean-aggregating dense layer
  of the whole operand arrays, row by row. The ten blocks tile the output, so after the region the output array is
  `hidden` of the arrays the region found.
-/
import proofs.«149296_j19722489823529_2_alg».proof.Proof.Gen.KernelIdeal.Frame
import proofs.«149296_j19722489823529_2_alg».proof.Proof.LayerOneBody
import Idealize.ShloMosaic.Lib.Pipeline.Value
import Idealize.ShloMosaic.Lib.ValueIdx

set_option maxRecDepth 16384

noncomputable section

open scoped BigOperators

namespace Cert.KernelIdeal.LayerOne

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.MeanDense

/-- Entry (r, q) of the layer's output from the whole operand arrays: row r's clamped entry. -/
def hiddenAt (N : S100000x50.Idx → EReal) (C : S100000x1.Idx → EReal) (X : S100000x50.Idx → EReal)
    (Wl Wr : S50x32.Idx → EReal) (B : S1x32.Idx → EReal) (r : Fin 100000) (q : Fin 32) : EReal :=
  relu (entry (fun c => N (ix2 r c)) (C (ix2 r (0 : Fin 1))) (fun c => X (ix2 r c))
    (fun c => Wl (ix2 c q)) (fun c => Wr (ix2 c q)) (B (ix2 (0 : Fin 1) q)))

/-- The layer's output array. -/
def hidden (N : S100000x50.Idx → EReal) (C : S100000x1.Idx → EReal) (X : S100000x50.Idx → EReal)
    (Wl Wr : S50x32.Idx → EReal) (B : S1x32.Idx → EReal) : S100000x32.Idx → EReal :=
  fun i => hiddenAt N C X Wl Wr B (i 0) (i 1)

theorem hz : (![0, 0] : Fin 2 → Nat) = fun _ => 0 := funext fun a => by fin_cases a <;> rfl

/-- What the body leaves in the output block, at (p, q), from the blocks it was shown. -/
theorem out_apply (x0 : Vec Ideal S10000x50 .f32) (x1 : Vec Ideal S10000x1 .f32) (x2 : Vec Ideal S10000x50 .f32)
    (x3 x4 : Vec Ideal S50x32 .f32) (x5 : Vec Ideal S1x32 .f32) (p : Fin 10000) (q : Fin 32) :
    out0_6 (F := Ideal) x0 x1 x2 x3 x4 x5 (ix2 p q)
      = relu (entry (fun c => x0 (ix2 p c)) (x1 (ix2 p (0 : Fin 1))) (fun c => x2 (ix2 p c))
          (fun c => x3 (ix2 c q)) (fun c => x4 (ix2 c q)) (x5 (ix2 (0 : Fin 1) q))) := by
  unfold out0_6
  rw [View.canon_unit_zero hz]
  simp only [View.ld_unit_zero (S := S10000x1) hz, View.ld_unit_zero (S := S10000x50) hz,
    View.ld_unit_zero (S := S50x32) hz, View.ld_unit_zero (S := S1x32) hz]
  exact payload_apply x1 x0 x2 x3 x4 x5 p q

/-- The printed index maps over the grid: a row-blocked window's block index is (t, 0), a whole window's (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 10 := by
  have h := t.isLt
  have hN : cfg0.N = 10 := N_0
  omega

/-- Row p of point t's block is row t·10000 + p of the array. -/
def rowOf (t : Fin cfg0.N) (p : Fin 10000) : Fin 100000 :=
  ⟨t.val * 10000 + p.val, by have := t_lt t; have := p.isLt; omega⟩

variable (V : (c : Dev nD) → (b : Ref sig .tc) → Buf (Elt Ideal) ((c : Thread nD τ).loc b))

/-- The neighbour sums' block at point t reads the array at rows t·10000 + p. -/
theorem read0 (c : Dev nD) (t : Fin cfg0.N) (p : Fin 10000) (k : Fin 50) :
    iblk0 V c 0 t (ix2 p k) = V c main_v16 (ix2 (rowOf t p) k) := by
  obtain ⟨e0, e1, -⟩ := idx_facts t
  show V c main_v16 (((cfg0.win 0).blk t).view.emb (ix2 p k)) = V c main_v16 (ix2 (rowOf t p) k)
  refine congrArg (V c main_v16) (funext fun a => Fin.ext ?_)
  match a with
  | ⟨0, _⟩ => show win0_0.index t (0 : Fin 2) * 10000 + 1 * p.val = t.val * 10000 + p.val; omega
  | ⟨1, _⟩ => show win0_0.index t (1 : Fin 2) * 50 + 1 * k.val = k.val; omega

/-- The count column's block at point t reads the array at rows t·10000 + p. -/
theorem read1 (c : Dev nD) (t : Fin cfg0.N) (p : Fin 10000) (u : Fin 1) :
    iblk0 V c 1 t (ix2 p u) = V c main_v21 (ix2 (rowOf t p) u) := by
  obtain ⟨-, -, e0, e1, -⟩ := idx_facts t
  show V c main_v21 (((cfg0.win 1).blk t).view.emb (ix2 p u)) = V c main_v21 (ix2 (rowOf t p) u)
  refine congrArg (V c main_v21) (funext fun a => Fin.ext ?_)
  match a with
  | ⟨0, _⟩ => show win0_1.index t (0 : Fin 2) * 10000 + 1 * p.val = t.val * 10000 + p.val; omega
  | ⟨1, _⟩ => show win0_1.index t (1 : Fin 2) * 1 + 1 * u.val = u.val; omega

/-- The features' block at point t reads the array at rows t·10000 + p. -/
theorem read2 (c : Dev nD) (t : Fin cfg0.N) (p : Fin 10000) (k : Fin 50) :
    iblk0 V c 2 t (ix2 p k) = V c main_arg0 (ix2 (rowOf t p) k) := by
  obtain ⟨-, -, -, -, e0, e1, -⟩ := idx_facts t
  show V c main_arg0 (((cfg0.win 2).blk t).view.emb (ix2 p k)) = V c main_arg0 (ix2 (rowOf t p) k)
  refine congrArg (V c main_arg0) (funext fun a => Fin.ext ?_)
  match a with
  | ⟨0, _⟩ => show win0_2.index t (0 : Fin 2) * 10000 + 1 * p.val = t.val * 10000 + p.val; omega
  | ⟨1, _⟩ => show win0_2.index t (1 : Fin 2) * 50 + 1 * k.val = k.val; omega

/-- The first weight matrix is shown whole at every point. -/
theorem read3 (c : Dev nD) (t : Fin cfg0.N) (k : Fin 50) (q : Fin 32) :
    iblk0 V c 3 t (ix2 k q) = V c main_arg3 (ix2 k q) := by
  obtain ⟨-, -, -, -, -, -, e0, e1, -⟩ := idx_facts t
  show V c main_arg3 (((cfg0.win 3).blk t).view.emb (ix2 k q)) = V c main_arg3 (ix2 k q)
  refine congrArg (V c main_arg3) (funext fun a => Fin.ext ?_)
  match a with
  | ⟨0, _⟩ => show win0_3.index t (0 : Fin 2) * 50 + 1 * k.val = k.val; omega
  | ⟨1, _⟩ => show win0_3.index t (1 : Fin 2) * 32 + 1 * q.val = q.val; omega

/-- The second weight matrix is shown whole at every point. -/
theorem read4 (c : Dev nD) (t : Fin cfg0.N) (k : Fin 50) (q : Fin 32) :
    iblk0 V c 4 t (ix2 k q) = V c main_arg4 (ix2 k q) := by
  obtain ⟨-, -, -, -, -, -, -, -, e0, e1, -⟩ := idx_facts t
  show V c main_arg4 (((cfg0.win 4).blk t).view.emb (ix2 k q)) = V c main_arg4 (ix2 k q)
  refine congrArg (V c main_arg4) (funext fun a => Fin.ext ?_)
  match a with
  | ⟨0, _⟩ => show win0_4.index t (0 : Fin 2) * 50 + 1 * k.val = k.val; omega
  | ⟨1, _⟩ => show win0_4.index t (1 : Fin 2) * 32 + 1 * q.val = q.val; omega

/-- The bias row is shown whole at every point. -/
theorem read5 (c : Dev nD) (t : Fin cfg0.N) (u : Fin 1) (q : Fin 32) :
    iblk0 V c 5 t (ix2 u q) = V c main_v22 (ix2 u q) := by
  obtain ⟨-, -, -, -, -, -, -, -, -, -, e0, e1, -⟩ := idx_facts t
  show V c main_v22 (((cfg0.win 5).blk t).view.emb (ix2 u q)) = V c main_v22 (ix2 u q)
  refine congrArg (V c main_v22) (funext fun a => Fin.ext ?_)
  match a with
  | ⟨0, _⟩ => show win0_5.index t (0 : Fin 2) * 1 + 1 * u.val = u.val; omega
  | ⟨1, _⟩ => show win0_5.index t (1 : Fin 2) * 32 + 1 * q.val = q.val; omega

/-- Entry (p, q) of point t's output block sits at (t·10000 + p, q) of the output array. -/
theorem emb6 (t : Fin cfg0.N) (p : Fin 10000) (q : Fin 32) :
    ((cfg0.win 6).blk t).view.emb (ix2 p q) = (ix2 (rowOf t p) q : S100000x32.Idx) := by
  obtain ⟨-, -, -, -, -, -, -, -, -, -, -, -, e0, e1⟩ := idx_facts t
  refine funext fun a => Fin.ext ?_
  match a with
  | ⟨0, _⟩ => show win0_6.index t (0 : Fin 2) * 10000 + 1 * p.val = t.val * 10000 + p.val; omega
  | ⟨1, _⟩ => show win0_6.index t (1 : Fin 2) * 32 + 1 * q.val = q.val; omega

/-- WHAT POINT t WRITES BACK is block t of `hidden` of the arrays the region found. -/
theorem written (c : Dev nD) (t : Fin cfg0.N) :
    (dat0 V c).flushed 6 t = ((cfg0.win 6).blk t).view.read (Elt Ideal)
      (hidden (V c main_v16) (V c main_v21) (V c main_arg0) (V c main_arg3) (V c main_arg4) (V c main_v22)) := by
  show (cfg0.win 6).cut (grid0.coords t) ((dat0 V c).after 6 t) = _
  rw [after0_6]
  funext j
  obtain ⟨p, q, rfl⟩ : ∃ (p : Fin 10000) (q : Fin 32), j = ix2 p q := ⟨j 0, j 1, eq_ix2 j⟩
  show out0_6 (iblk0 V c 0 t) (iblk0 V c 1 t) (iblk0 V c 2 t) (iblk0 V c 3 t) (iblk0 V c 4 t) (iblk0 V c 5 t) (ix2 p q)
    = hidden (V c main_v16) (V c main_v21) (V c main_arg0) (V c main_arg3) (V c main_arg4) (V c main_v22)
        (((cfg0.win 6).blk t).view.emb (ix2 p q))
  rw [emb6 t p q]
  refine (out_apply (iblk0 V c 0 t) (iblk0 V c 1 t) (iblk0 V c 2 t) (iblk0 V c 3 t) (iblk0 V c 4 t) (iblk0 V c 5 t) p q).trans ?_
  show _ = hiddenAt (V c main_v16) (V c main_v21) (V c main_arg0) (V c main_arg3) (V c main_arg4) (V c main_v22) (rowOf t p) q
  unfold hiddenAt
  simp only [read0 V c t, read1 V c t, read2 V c t, read3 V c t, read4 V c t, read5 V c t]

/-- An index of the output array is in point t's block iff each coordinate is in the block's range on its axis. -/
theorem mem_blk (t : Fin cfg0.N) (i : S100000x32.Idx) :
    i ∈ ((cfg0.win 6).blk t).view.set ↔ ∀ a : Fin 2, win0_6.index t a * S10000x32.size a ≤ (i a).val
      ∧ (i a).val < win0_6.index t a * S10000x32.size a + S10000x32.size a := by
  show i ∈ ((View.whole main_v23).slice (win0_6.rect t)).set ↔ _
  rw [View.set_slice_whole, Rect.mem_set_unit]
  exact Iff.rfl

/-- The ten blocks tile the output array: row r is in the block of point r / 10000. -/
theorem covered (i : S100000x32.Idx) :
    ∃ t : Fin cfg0.N, (cfg0.win 6).flush t = true ∧ i ∈ ((cfg0.win 6).blk t).view.set := by
  have hi0 : (i 0).val < 100000 := (i 0).isLt
  have hi1 : (i 1).val < 32 := (i 1).isLt
  have hN : cfg0.N = 10 := N_0
  let t : Fin cfg0.N := ⟨(i 0).val / 10000, by omega⟩
  have ht : t.val = (i 0).val / 10000 := rfl
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 10000 ≤ (i 0).val ∧ (i 0).val < win0_6.index t (0 : Fin 2) * 10000 + 10000
    omega
  | ⟨1, _⟩ =>
    show win0_6.index t (1 : Fin 2) * 32 ≤ (i 1).val ∧ (i 1).val < win0_6.index t (1 : Fin 2) * 32 + 32
    omega

/-- THE OUTPUT ARRAY after the region: `hidden` of the arrays the region found. -/
theorem final (c : Dev nD) :
    (dat0 V c).arrAt 6 cfg0.N
      = hidden (V c main_v16) (V c main_v21) (V c main_arg0) (V c main_arg3) (V c main_arg4) (V c main_v22) :=
  (dat0 V c).arrAt_eq_of_cover 6 _ (fun t _ => written V c t) covered

end Cert.KernelIdeal.LayerOne

end
-- ==== Proof.LayerTwoBody.lean ====
/-
  The second layer's body at an entry.

  On a block of 10000 rows the body forms the same mean-aggregating dense layer as the first one (five output columns,
  no clamp), then takes the log-softmax of each row: the row maximum subtracted, the exponentials summed, the logarithm
  of the sum subtracted. At entry (p, q) that is the log-softmax, at column q, of the row of the layer's five entries.
-/
import proofs.«149296_j19722489823529_2_alg».proof.Proof.Gen.KernelIdeal.Skeleton
import proofs.«149296_j19722489823529_2_alg».proof.Proof.LibMeanDense

noncomputable section

open scoped BigOperators

namespace Cert.KernelIdeal.LayerTwo

open Cert.KernelIdeal Cert.KernelIdeal.Gen Idealize.ShloMosaic Idealize.ShloMosaic.ValueIdx
open Cert.MeanDense Cert.RowWise Cert.BlockRows

/-- The body's stored value at (p, q) is the log-softmax at q of row p's five layer entries. -/
theorem payload_apply (cnt : Vec Ideal S10000x1 .f32) (num own : Vec Ideal S10000x32 .f32)
    (wl wr : Vec Ideal S32x5 .f32) (bias : Vec Ideal S1x5 .f32) (p : Fin 10000) (q : Fin 5) :
    k1_pay1 (F := Ideal) cnt num own wl wr bias (ix2 p q)
      = logSoftmaxRow (fun j => entry (fun c => num (ix2 p c)) (cnt (ix2 p (0 : Fin 1))) (fun c => own (ix2 p c))
          (fun c => wl (ix2 c j)) (fun c => wr (ix2 c j)) (bias (ix2 (0 : Fin 1) j))) q := by
  unfold k1_pay1
  rw [shapeCast_self (v := own)]
  refine (vecLogSoftmax_apply (m := 10000) (n := 5) _ _ _ _ _ _ _ p q).trans ?_
  refine congrArg (fun y => logSoftmaxRow y q) (funext fun j => ?_)
  exact blockMeanDense_apply (m := 10000) (k := 32) (n := 5) num cnt own wl wr bias _ _ _ _ _ _ p j

end Cert.KernelIdeal.LayerTwo

end
-- ==== Proof.OutputArray.lean ====
/-
  The second layer's output array.

  The second pallas_call cuts the 100000 rows into ten blocks of 10000 exactly as the first: at grid point t the
  neighbour sums of the output rows, the count column, the output rows themselves and the output show rows
  t·10000 … t·10000 + 9999, the two weight matrices and the bias row are shown whole. The body's value at (p, q) depends
  on row p of its operands only — the row's five layer entries and their log-softmax —, so what point t writes back is
  rows t·10000 … of ONE array, `output`, and the ten blocks tile it.
-/
import proofs.«149296_j19722489823529_2_alg».proof.Proof.Gen.KernelIdeal.Frame
import proofs.«149296_j19722489823529_2_alg».proof.Proof.LayerTwoBody
import Idealize.ShloMosaic.Lib.Pipeline.Value
import Idealize.ShloMosaic.Lib.ValueIdx

set_option maxRecDepth 16384

noncomputable section

open scoped BigOperators

namespace Cert.KernelIdeal.LayerTwo

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.MeanDense Cert.RowWise

/-- Entry (r, q) of the layer's output from the whole operand arrays: the log-softmax at q of row r's five entries. -/
def outAt (N : S100000x32.Idx → EReal) (C : S100000x1.Idx → EReal) (X : S100000x32.Idx → EReal)
    (Wl Wr : S32x5.Idx → EReal) (B : S1x5.Idx → EReal) (r : Fin 100000) (q : Fin 5) : EReal :=
  logSoftmaxRow (fun j => entry (fun c => N (ix2 r c)) (C (ix2 r (0 : Fin 1))) (fun c => X (ix2 r c))
    (fun c => Wl (ix2 c j)) (fun c => Wr (ix2 c j)) (B (ix2 (0 : Fin 1) j))) q

/-- The layer's output array. -/
def output (N : S100000x32.Idx → EReal) (C : S100000x1.Idx → EReal) (X : S100000x32.Idx → EReal)
    (Wl Wr : S32x5.Idx → EReal) (B : S1x5.Idx → EReal) : S100000x5.Idx → EReal :=
  fun i => outAt N C X Wl Wr B (i 0) (i 1)

theorem hz : (![0, 0] : Fin 2 → Nat) = fun _ => 0 := funext fun a => by fin_cases a <;> rfl

/-- What the body leaves in the output block, at (p, q), from the blocks it was shown. -/
theorem out_apply (x0 : Vec Ideal S10000x32 .f32) (x1 : Vec Ideal S10000x1 .f32) (x2 : Vec Ideal S10000x32 .f32)
    (x3 x4 : Vec Ideal S32x5 .f32) (x5 : Vec Ideal S1x5 .f32) (p : Fin 10000) (q : Fin 5) :
    out1_6 (F := Ideal) x0 x1 x2 x3 x4 x5 (ix2 p q)
      = logSoftmaxRow (fun j => entry (fun c => x0 (ix2 p c)) (x1 (ix2 p (0 : Fin 1))) (fun c => x2 (ix2 p c))
          (fun c => x3 (ix2 c j)) (fun c => x4 (ix2 c j)) (x5 (ix2 (0 : Fin 1) j))) q := by
  unfold out1_6
  rw [View.canon_unit_zero hz]
  simp only [View.ld_unit_zero (S := S10000x1) hz, View.ld_unit_zero (S := S10000x32) hz,
    View.ld_unit_zero (S := S32x5) hz, View.ld_unit_zero (S := S1x5) hz]
  exact payload_apply x1 x0 x2 x3 x4 x5 p q

/-- The printed index maps over the grid: a row-blocked window's block index is (t, 0), a whole window's (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 10 := by
  have h := t.isLt
  have hN : cfg1.N = 10 := N_1
  omega

/-- Row p of point t's block is row t·10000 + p of the array. -/
def rowOf (t : Fin cfg1.N) (p : Fin 10000) : Fin 100000 :=
  ⟨t.val * 10000 + p.val, by have := t_lt t; have := p.isLt; omega⟩

variable (V : (c : Dev nD) → (b : Ref sig .tc) → Buf (Elt Ideal) ((c : Thread nD τ).loc b))

/-- The hidden rows' neighbour sums' block at point t reads the array at rows t·10000 + p. -/
theorem read0 (c : Dev nD) (t : Fin cfg1.N) (p : Fin 10000) (k : Fin 32) :
    iblk1 V c 0 t (ix2 p k) = V c main_v33 (ix2 (rowOf t p) k) := by
  obtain ⟨e0, e1, -⟩ := idx_facts t
  show V c main_v33 (((cfg1.win 0).blk t).view.emb (ix2 p k)) = V c main_v33 (ix2 (rowOf t p) k)
  refine congrArg (V c main_v33) (funext fun a => Fin.ext ?_)
  match a with
  | ⟨0, _⟩ => show win1_0.index t (0 : Fin 2) * 10000 + 1 * p.val = t.val * 10000 + p.val; omega
  | ⟨1, _⟩ => show win1_0.index t (1 : Fin 2) * 32 + 1 * k.val = k.val; omega

/-- The count column's block at point t reads the array at rows t·10000 + p. -/
theorem read1 (c : Dev nD) (t : Fin cfg1.N) (p : Fin 10000) (u : Fin 1) :
    iblk1 V c 1 t (ix2 p u) = V c main_v21 (ix2 (rowOf t p) u) := by
  obtain ⟨-, -, e0, e1, -⟩ := idx_facts t
  show V c main_v21 (((cfg1.win 1).blk t).view.emb (ix2 p u)) = V c main_v21 (ix2 (rowOf t p) u)
  refine congrArg (V c main_v21) (funext fun a => Fin.ext ?_)
  match a with
  | ⟨0, _⟩ => show win1_1.index t (0 : Fin 2) * 10000 + 1 * p.val = t.val * 10000 + p.val; omega
  | ⟨1, _⟩ => show win1_1.index t (1 : Fin 2) * 1 + 1 * u.val = u.val; omega

/-- The hidden rows' block at point t reads the array at rows t·10000 + p. -/
theorem read2 (c : Dev nD) (t : Fin cfg1.N) (p : Fin 10000) (k : Fin 32) :
    iblk1 V c 2 t (ix2 p k) = V c main_v23 (ix2 (rowOf t p) k) := by
  obtain ⟨-, -, -, -, e0, e1, -⟩ := idx_facts t
  show V c main_v23 (((cfg1.win 2).blk t).view.emb (ix2 p k)) = V c main_v23 (ix2 (rowOf t p) k)
  refine congrArg (V c main_v23) (funext fun a => Fin.ext ?_)
  match a with
  | ⟨0, _⟩ => show win1_2.index t (0 : Fin 2) * 10000 + 1 * p.val = t.val * 10000 + p.val; omega
  | ⟨1, _⟩ => show win1_2.index t (1 : Fin 2) * 32 + 1 * k.val = k.val; omega

/-- The first weight matrix is shown whole at every point. -/
theorem read3 (c : Dev nD) (t : Fin cfg1.N) (k : Fin 32) (q : Fin 5) :
    iblk1 V c 3 t (ix2 k q) = V c main_arg6 (ix2 k q) := by
  obtain ⟨-, -, -, -, -, -, e0, e1, -⟩ := idx_facts t
  show V c main_arg6 (((cfg1.win 3).blk t).view.emb (ix2 k q)) = V c main_arg6 (ix2 k q)
  refine congrArg (V c main_arg6) (funext fun a => Fin.ext ?_)
  match a with
  | ⟨0, _⟩ => show win1_3.index t (0 : Fin 2) * 32 + 1 * k.val = k.val; omega
  | ⟨1, _⟩ => show win1_3.index t (1 : Fin 2) * 5 + 1 * q.val = q.val; omega

/-- The second weight matrix is shown whole at every point. -/
theorem read4 (c : Dev nD) (t : Fin cfg1.N) (k : Fin 32) (q : Fin 5) :
    iblk1 V c 4 t (ix2 k q) = V c main_arg7 (ix2 k q) := by
  obtain ⟨-, -, -, -, -, -, -, -, e0, e1, -⟩ := idx_facts t
  show V c main_arg7 (((cfg1.win 4).blk t).view.emb (ix2 k q)) = V c main_arg7 (ix2 k q)
  refine congrArg (V c main_arg7) (funext fun a => Fin.ext ?_)
  match a with
  | ⟨0, _⟩ => show win1_4.index t (0 : Fin 2) * 32 + 1 * k.val = k.val; omega
  | ⟨1, _⟩ => show win1_4.index t (1 : Fin 2) * 5 + 1 * q.val = q.val; omega

/-- The bias row is shown whole at every point. -/
theorem read5 (c : Dev nD) (t : Fin cfg1.N) (u : Fin 1) (q : Fin 5) :
    iblk1 V c 5 t (ix2 u q) = V c main_v34 (ix2 u q) := by
  obtain ⟨-, -, -, -, -, -, -, -, -, -, e0, e1, -⟩ := idx_facts t
  show V c main_v34 (((cfg1.win 5).blk t).view.emb (ix2 u q)) = V c main_v34 (ix2 u q)
  refine congrArg (V c main_v34) (funext fun a => Fin.ext ?_)
  match a with
  | ⟨0, _⟩ => show win1_5.index t (0 : Fin 2) * 1 + 1 * u.val = u.val; omega
  | ⟨1, _⟩ => show win1_5.index t (1 : Fin 2) * 5 + 1 * q.val = q.val; omega

/-- Entry (p, q) of point t's output block sits at (t·10000 + p, q) of the output array. -/
theorem emb6 (t : Fin cfg1.N) (p : Fin 10000) (q : Fin 5) :
    ((cfg1.win 6).blk t).view.emb (ix2 p q) = (ix2 (rowOf t p) q : S100000x5.Idx) := by
  obtain ⟨-, -, -, -, -, -, -, -, -, -, -, -, e0, e1⟩ := idx_facts t
  refine funext fun a => Fin.ext ?_
  match a with
  | ⟨0, _⟩ => show win1_6.index t (0 : Fin 2) * 10000 + 1 * p.val = t.val * 10000 + p.val; omega
  | ⟨1, _⟩ => show win1_6.index t (1 : Fin 2) * 5 + 1 * q.val = q.val; omega

/-- WHAT POINT t WRITES BACK is block t of `output` of the arrays the region found. -/
theorem written (c : Dev nD) (t : Fin cfg1.N) :
    (dat1 V c).flushed 6 t = ((cfg1.win 6).blk t).view.read (Elt Ideal)
      (output (V c main_v33) (V c main_v21) (V c main_v23) (V c main_arg6) (V c main_arg7) (V c main_v34)) := by
  show (cfg1.win 6).cut (grid1.coords t) ((dat1 V c).after 6 t) = _
  rw [after1_6]
  funext j
  obtain ⟨p, q, rfl⟩ : ∃ (p : Fin 10000) (q : Fin 5), j = ix2 p q := ⟨j 0, j 1, eq_ix2 j⟩
  show out1_6 (iblk1 V c 0 t) (iblk1 V c 1 t) (iblk1 V c 2 t) (iblk1 V c 3 t) (iblk1 V c 4 t) (iblk1 V c 5 t) (ix2 p q)
    = output (V c main_v33) (V c main_v21) (V c main_v23) (V c main_arg6) (V c main_arg7) (V c main_v34)
        (((cfg1.win 6).blk t).view.emb (ix2 p q))
  rw [emb6 t p q]
  refine (out_apply (iblk1 V c 0 t) (iblk1 V c 1 t) (iblk1 V c 2 t) (iblk1 V c 3 t) (iblk1 V c 4 t) (iblk1 V c 5 t) p q).trans ?_
  show _ = outAt (V c main_v33) (V c main_v21) (V c main_v23) (V c main_arg6) (V c main_arg7) (V c main_v34) (rowOf t p) q
  unfold outAt
  simp only [read0 V c t, read1 V c t, read2 V c t, read3 V c t, read4 V c t, read5 V c t]

/-- An index of the output array is in point t's block iff each coordinate is in the block's range on its axis. -/
theorem mem_blk (t : Fin cfg1.N) (i : S100000x5.Idx) :
    i ∈ ((cfg1.win 6).blk t).view.set ↔ ∀ a : Fin 2, win1_6.index t a * S10000x5.size a ≤ (i a).val
      ∧ (i a).val < win1_6.index t a * S10000x5.size a + S10000x5.size a := by
  show i ∈ ((View.whole main_v35).slice (win1_6.rect t)).set ↔ _
  rw [View.set_slice_whole, Rect.mem_set_unit]
  exact Iff.rfl

/-- The ten blocks tile the output array: row r is in the block of point r / 10000. -/
theorem covered (i : S100000x5.Idx) :
    ∃ t : Fin cfg1.N, (cfg1.win 6).flush t = true ∧ i ∈ ((cfg1.win 6).blk t).view.set := by
  have hi0 : (i 0).val < 100000 := (i 0).isLt
  have hi1 : (i 1).val < 5 := (i 1).isLt
  have hN : cfg1.N = 10 := N_1
  let t : Fin cfg1.N := ⟨(i 0).val / 10000, by omega⟩
  have ht : t.val = (i 0).val / 10000 := rfl
  obtain ⟨-, -, -, -, -, -, -, -, -, -, -, -, e0, e1⟩ := idx_facts t
  refine ⟨t, flush1_6 t, ?_⟩
  rw [mem_blk]
  intro a
  match a with
  | ⟨0, _⟩ =>
    show win1_6.index t (0 : Fin 2) * 10000 ≤ (i 0).val ∧ (i 0).val < win1_6.index t (0 : Fin 2) * 10000 + 10000
    omega
  | ⟨1, _⟩ =>
    show win1_6.index t (1 : Fin 2) * 5 ≤ (i 1).val ∧ (i 1).val < win1_6.index t (1 : Fin 2) * 5 + 5
    omega

/-- THE OUTPUT ARRAY after the region: `output` of the arrays the region found. -/
theorem final (c : Dev nD) :
    (dat1 V c).arrAt 6 cfg1.N
      = output (V c main_v33) (V c main_v21) (V c main_v23) (V c main_arg6) (V c main_arg7) (V c main_v34) :=
  (dat1 V c).arrAt_eq_of_cover 6 _ (fun t _ => written V c t) covered

end Cert.KernelIdeal.LayerTwo

end
-- ==== Proof.Spec.lean ====
/-
  What both programs compute, as functions of the nine argument arrays.

  The graph has 100000 nodes and 1600000 edges; row 0 of the edge array holds each edge's source node, row 1 its
  target. Three quantities are sums over the edges that arrive at a node, and both programs form them with the same
  gather and scatter-add operations, so here they are those operations' terms and are never opened:
    `numerOne`  — per node, the sum of the edge-weighted feature rows of its in-neighbours;
    `count`     — per node, the number of arriving edges;
    `numerTwo h` — per node, the sum of the rows of `h` at its in-neighbours.
  On top of them the two layers are read row by row (Cert.MeanDense.entry):
    `hiddenArr` — max(numerOne / max(count, 1) · W_rel1 + x · W_root1 + b1, 0);
    `outArr`    — the log-softmax along each row of numerTwo(h) / max(count, 1) · W_rel2 + h · W_root2 + b2, h = hiddenArr.
-/
import proofs.«149296_j19722489823529_2_alg».proof.Proof.Gen.ReferenceIdeal
import proofs.«149296_j19722489823529_2_alg».proof.Proof.LibMeanDense

noncomputable section

open scoped BigOperators

namespace Cert.Spec

open Cert.ReferenceIdeal Cert.ReferenceIdeal.Gen
open Idealize.ShloMosaic Idealize.ShloMosaic.ValueIdx Cert.MeanDense Cert.RowWise

/-- The edges' source nodes: row 0 of the edge array as a vector over the edges. -/
def srcRow (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000

/-- The edges' target nodes: row 1 of the edge array as a vector over the edges. -/
def dstRow (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The source nodes `s` as a column of gather indices (a negative word wrapped by the node count, as jnp indexing
    does). -/
def srcCol (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The target nodes `d` as a column of scatter indices. -/
def dstCol (d : (⟨S1600000, .i32⟩ : BufTy).Contents (Elt Ideal)) : (⟨S1600000x1, .i32⟩ : BufTy).Contents (Elt Ideal) :=
  broadcastInDim S1600000x1 ![0] bcast_S1600000_S1600000x1_0 d

/-- Per node, the sum over arriving edges of the source's feature row times the edge's weight. -/
def numerOne (x : FVec Ideal S100000x50 .f32) (s d : (⟨S1600000, .i32⟩ : BufTy).Contents (Elt Ideal))
    (w : FVec Ideal S1600000 .f32) : FVec Ideal S100000x50 .f32 :=
  Host.scatterAdd scatter_S100000x50_S1600000x1_S1600000x50_1_0_0_1
    (broadcastInDim S100000x50 ![] bcast_S_S100000x50 (constant S_ .f32 0x00000000#32)) (dstCol d)
    (mulf (Host.gather gather_S100000x50_S1600000x1_S1600000x50_1_0_n_n_0_1_150 x (srcCol s))
      (broadcastInDim S1600000x50 ![0, 1] bcast_S1600000x1_S1600000x50_0_1
        (broadcastInDim S1600000x1 ![0] bcast_S1600000_S1600000x1_0 w)))

/-- Per node, the number of arriving edges. -/
def count (d : (⟨S1600000, .i32⟩ : BufTy).Contents (Elt Ideal)) : FVec Ideal S100000 .f32 :=
  Host.scatterAdd scatter_S100000_S1600000x1_S1600000_n_0_0_1
    (broadcastInDim S100000 ![] bcast_S_S100000 (constant S_ .f32 0x00000000#32)) (dstCol d)
    (broadcastInDim S1600000 ![] bcast_S_S1600000 (constant S_ .f32 0x3F800000#32))

/-- Per node, the sum over arriving edges of the source's row of `h`. -/
def numerTwo (h : FVec Ideal S100000x32 .f32) (s d : (⟨S1600000, .i32⟩ : BufTy).Contents (Elt Ideal)) :
    FVec Ideal S100000x32 .f32 :=
  Host.scatterAdd scatter_S100000x32_S1600000x1_S1600000x32_1_0_0_1
    (broadcastInDim S100000x32 ![] bcast_S_S100000x32 (constant S_ .f32 0x00000000#32)) (dstCol d)
    (Host.gather gather_S100000x32_S1600000x1_S1600000x32_1_0_n_n_0_1_132 h (srcCol s))

/-- Entry (r, q) of a layer over whole arrays: the neighbour sums `N`, the counts `Cv`, the rows' own features `X`. -/
def layerAt {k n : ℕ} (N : FVec Ideal ⟨2, ![100000, k]⟩ .f32) (Cv : FVec Ideal ⟨1, ![100000]⟩ .f32)
    (X : FVec Ideal ⟨2, ![100000, k]⟩ .f32) (Wl Wr : FVec Ideal ⟨2, ![k, n]⟩ .f32) (b : FVec Ideal ⟨1, ![n]⟩ .f32)
    (r : Fin 100000) (q : Fin n) : EReal :=
  entry (fun c => N (ix2 r c)) (Cv (ix1 r)) (fun c => X (ix2 r c)) (fun c => Wl (ix2 c q)) (fun c => Wr (ix2 c q)) (b (ix1 q))

/-- The first layer's output: the clamped layer, row by row. -/
def hiddenArr (x : FVec Ideal S100000x50 .f32) (s d : (⟨S1600000, .i32⟩ : BufTy).Contents (Elt Ideal))
    (w : FVec Ideal S1600000 .f32) (wl wr : FVec Ideal S50x32 .f32) (b : FVec Ideal S32 .f32) :
    FVec Ideal S100000x32 .f32 :=
  fun i => max (layerAt (numerOne x s d w) (count d) x wl wr b (i 0) (i 1)) (Ideal.ofBits .f32 0x00000000#32)

/-- The second layer's output from the first layer's output `h`: the log-softmax of each row of the layer. -/
def outOf (h : FVec Ideal S100000x32 .f32) (s d : (⟨S1600000, .i32⟩ : BufTy).Contents (Elt Ideal))
    (wl wr : FVec Ideal S32x5 .f32) (b : FVec Ideal S5 .f32) : FVec Ideal S100000x5 .f32 :=
  fun i => logSoftmaxRow (fun j => layerAt (numerTwo h s d) (count d) h wl wr b (i 0) j) (i 1)

/-- The result array of both programs, from the nine argument arrays. -/
def outArr (x : FVec Ideal S100000x50 .f32) (ei : (⟨S2x1600000, .i32⟩ : BufTy).Contents (Elt Ideal))
    (w : FVec Ideal S1600000 .f32) (wl1 wr1 : FVec Ideal S50x32 .f32) (b1 : FVec Ideal S32 .f32)
    (wl2 wr2 : FVec Ideal S32x5 .f32) (b2 : FVec Ideal S5 .f32) : FVec Ideal S100000x5 .f32 :=
  outOf (hiddenArr x (srcRow ei) (dstRow ei) w wl1 wr1 b1) (srcRow ei) (dstRow ei) wl2 wr2 b2

end Cert.Spec

end
-- ==== Proof.KernelValue.lean ====
/-
  The idealized kernel's result, read through the four segments.

  After the last segment the result's buffer holds what the second pallas_call's ten write-backs left (OutputArray:
  `LayerTwo.output` of the arrays that region found). Those arrays are what the host operations before it left
  — the neighbour sums of the hidden rows, the bias as a row — or arrays no operation in between wrote: the count column,
  the two weight matrices, and the hidden rows, which are what the first pallas_call's write-backs left (HiddenArray:
  `LayerOne.hidden` of the arrays THAT region found), themselves the first host stretch's neighbour sums, count column
  and bias row of the launch contents. Each stretch's results are the specification's graph terms (`first_*`,
  `second_*`), the two block-wise layers are the specification's row-wise ones once the count column and the bias rows
  are read back as the vectors they were reshaped from (`hidden_eq`, `output_eq`), and the chain composes to
  `Spec.outArr` of the argument arrays (`result_eq`).
-/
import proofs.«149296_j19722489823529_2_alg».proof.Proof.Gen.KernelIdeal.Frame
import proofs.«149296_j19722489823529_2_alg».proof.Proof.HiddenArray
import proofs.«149296_j19722489823529_2_alg».proof.Proof.OutputArray
import proofs.«149296_j19722489823529_2_alg».proof.Proof.Spec
import proofs.«149296_j19722489823529_2_alg».proof.Proof.LibColumnCast
import Idealize.ShloMosaic.Lib.ValueLayout

set_option maxRecDepth 16384

noncomputable section

open scoped BigOperators

namespace Cert.KernelIdeal.FoldValue

open Cert.KernelIdeal Cert.KernelIdeal.Gen
open Idealize.ShloMosaic Idealize.ShloMosaic.TcCoe Idealize.SL.Sem Idealize.ShloMosaic.StableHlo
open Idealize.ShloMosaic.ValueIdx
open Idealize.ShloMosaic.Pipeline (Dat Cfg Window)
open Cert.MeanDense Cert.RowWise

/-! ## The two layers, block-wise and row-wise -/

/-- The block-wise first layer over the count COLUMN and the bias ROW is the specification's over the vectors. -/
theorem hidden_eq (x : FVec Ideal S100000x50 .f32) (s d : (⟨S1600000, .i32⟩ : BufTy).Contents (Elt Ideal))
    (w : FVec Ideal S1600000 .f32) (wl wr : FVec Ideal S50x32 .f32) (b : FVec Ideal S32 .f32) :
    LayerOne.hidden (Cert.Spec.numerOne x s d w) (shapeCast S100000x1 (Cert.Spec.count d) shapeCasts_S100000_S100000x1)
        x wl wr (shapeCast S1x32 b shapeCasts_S32_S1x32)
      = Cert.Spec.hiddenArr x s d w wl wr b := by
  funext i
  obtain ⟨r, q, rfl⟩ : ∃ (r : Fin 100000) (q : Fin 32), i = ix2 r q := ⟨i 0, i 1, eq_ix2 i⟩
  show LayerOne.relu (Cert.MeanDense.entry _ (shapeCast S100000x1 (Cert.Spec.count d) shapeCasts_S100000_S100000x1 (ix2 r (0 : Fin 1)))
      _ _ _ (shapeCast S1x32 b shapeCasts_S32_S1x32 (ix2 (0 : Fin 1) q))) = _
  rw [Cert.LibColumnCast.shapeCast_a_a1_apply, shapeCast_a_1a_apply]
  rfl

/-- Entry (r, q) of the block-wise second layer over the count column and the bias row is the log-softmax of row r's
    entries over the vectors. -/
theorem outAt_eq (h : FVec Ideal S100000x32 .f32) (s d : (⟨S1600000, .i32⟩ : BufTy).Contents (Elt Ideal))
    (wl wr : FVec Ideal S32x5 .f32) (b : FVec Ideal S5 .f32) (r : Fin 100000) (q : Fin 5) :
    LayerTwo.outAt (Cert.Spec.numerTwo h s d) (shapeCast S100000x1 (Cert.Spec.count d) shapeCasts_S100000_S100000x1)
        h wl wr (shapeCast S1x5 b shapeCasts_S5_S1x5) r q
      = logSoftmaxRow (fun j => Cert.Spec.layerAt (Cert.Spec.numerTwo h s d) (Cert.Spec.count d) h wl wr b r j) q := by
  unfold LayerTwo.outAt Cert.Spec.layerAt
  refine congrArg (fun y => logSoftmaxRow y q) (funext fun j => ?_)
  rw [Cert.LibColumnCast.shapeCast_a_a1_apply, shapeCast_a_1a_apply]

/-- The block-wise second layer over the count column and the bias row is the specification's over the vectors. -/
theorem output_eq (h : FVec Ideal S100000x32 .f32) (s d : (⟨S1600000, .i32⟩ : BufTy).Contents (Elt Ideal))
    (wl wr : FVec Ideal S32x5 .f32) (b : FVec Ideal S5 .f32) :
    LayerTwo.output (Cert.Spec.numerTwo h s d) (shapeCast S100000x1 (Cert.Spec.count d) shapeCasts_S100000_S100000x1)
        h wl wr (shapeCast S1x5 b shapeCasts_S5_S1x5)
      = Cert.Spec.outOf h s d wl wr b := by
  funext i
  obtain ⟨r, q, rfl⟩ : ∃ (r : Fin 100000) (q : Fin 5), i = ix2 r q := ⟨i 0, i 1, eq_ix2 i⟩
  exact outAt_eq h s d wl wr b r q

/-! ## What each host stretch leaves, from any contents `W` -/

variable (W : Valuation τ sig (Elt Ideal))

theorem first_numer : after (hostOps0 (F := Ideal)) W (Proc.devRef .tc main_v16)
    = Cert.Spec.numerOne (W (Proc.devRef .tc main_arg0)) (Cert.Spec.srcRow (W (Proc.devRef .tc main_arg1)))
        (Cert.Spec.dstRow (W (Proc.devRef .tc main_arg1))) (W (Proc.devRef .tc main_arg2)) := by
  after_results_simp <;> rfl

theorem first_count : after (hostOps0 (F := Ideal)) W (Proc.devRef .tc main_v21)
    = shapeCast S100000x1 (Cert.Spec.count (Cert.Spec.dstRow (W (Proc.devRef .tc main_arg1)))) shapeCasts_S100000_S100000x1 := by
  after_results_simp <;> rfl

theorem first_bias : after (hostOps0 (F := Ideal)) W (Proc.devRef .tc main_v22)
    = shapeCast S1x32 (W (Proc.devRef .tc main_arg5)) shapeCasts_S32_S1x32 := by
  after_results_simp <;> rfl

theorem first_src : after (hostOps0 (F := Ideal)) W (Proc.devRef .tc main_v1)
    = Cert.Spec.srcRow (W (Proc.devRef .tc main_arg1)) := by
  after_results_simp <;> rfl

theorem first_dst : after (hostOps0 (F := Ideal)) W (Proc.devRef .tc main_v3)
    = Cert.Spec.dstRow (W (Proc.devRef .tc main_arg1)) := by
  after_results_simp <;> rfl

theorem first_arg0 : after (hostOps0 (F := Ideal)) W (Proc.devRef .tc main_arg0) = W (Proc.devRef .tc main_arg0) := by
  after_results_simp <;> rfl
theorem first_arg3 : after (hostOps0 (F := Ideal)) W (Proc.devRef .tc main_arg3) = W (Proc.devRef .tc main_arg3) := by
  after_results_simp <;> rfl
theorem first_arg4 : after (hostOps0 (F := Ideal)) W (Proc.devRef .tc main_arg4) = W (Proc.devRef .tc main_arg4) := by
  after_results_simp <;> rfl
theorem first_arg6 : after (hostOps0 (F := Ideal)) W (Proc.devRef .tc main_arg6) = W (Proc.devRef .tc main_arg6) := by
  after_results_simp <;> rfl
theorem first_arg7 : after (hostOps0 (F := Ideal)) W (Proc.devRef .tc main_arg7) = W (Proc.devRef .tc main_arg7) := by
  after_results_simp <;> rfl
theorem first_arg8 : after (hostOps0 (F := Ideal)) W (Proc.devRef .tc main_arg8) = W (Proc.devRef .tc main_arg8) := by
  after_results_simp <;> rfl

theorem second_numer : after (hostOps1 (F := Ideal)) W (Proc.devRef .tc main_v33)
    = Cert.Spec.numerTwo (W (Proc.devRef .tc main_v23)) (W (Proc.devRef .tc main_v1)) (W (Proc.devRef .tc main_v3)) := by
  after_results_simp <;> rfl

theorem second_bias : after (hostOps1 (F := Ideal)) W (Proc.devRef .tc main_v34)
    = shapeCast S1x5 (W (Proc.devRef .tc main_arg8)) shapeCasts_S5_S1x5 := by
  after_results_simp <;> rfl

theorem second_count : after (hostOps1 (F := Ideal)) W (Proc.devRef .tc main_v21) = W (Proc.devRef .tc main_v21) := by
  after_results_simp <;> rfl
theorem second_hidden : after (hostOps1 (F := Ideal)) W (Proc.devRef .tc main_v23) = W (Proc.devRef .tc main_v23) := by
  after_results_simp <;> rfl
theorem second_arg6 : after (hostOps1 (F := Ideal)) W (Proc.devRef .tc main_arg6) = W (Proc.devRef .tc main_arg6) := by
  after_results_simp <;> rfl
theorem second_arg7 : after (hostOps1 (F := Ideal)) W (Proc.devRef .tc main_arg7) = W (Proc.devRef .tc main_arg7) := by
  after_results_simp <;> rfl

/-! ## The fold, boundary by boundary -/

variable (m : (ℓ : Loc nD τ sig) → Buf (Elt Ideal) ℓ) (ρ : Dev nD → PrngReg) (c : Dev nD)

/-- After the first pallas_call the hidden rows' buffer holds the first layer of what that region found. -/
theorem mid_hidden : W2 m ρ c (Proc.devRef .tc main_v23)
    = LayerOne.hidden (V1 m ρ c main_v16) (V1 m ρ c main_v21) (V1 m ρ c main_arg0) (V1 m ρ c main_arg3)
        (V1 m ρ c main_arg4) (V1 m ρ c main_v22) :=
  (W2_arr m ρ c 6).trans (LayerOne.final (V1 m ρ) c)

/-- The count column is an input of the first pallas_call: it leaves it as found. -/
theorem mid_count : W2 m ρ c (Proc.devRef .tc main_v21) = W1 m ρ c (Proc.devRef .tc main_v21) :=
  (W2_arr m ρ c 1).trans (((dat0 (V1 m ρ) c).arrAt_in 1 rfl _).trans (A_eq0 (V1 m ρ) c 1))

theorem mid_src : W2 m ρ c (Proc.devRef .tc main_v1) = W1 m ρ c (Proc.devRef .tc main_v1) := W2_of_ne m ρ c main_v1 (by decide)
theorem mid_dst : W2 m ρ c (Proc.devRef .tc main_v3) = W1 m ρ c (Proc.devRef .tc main_v3) := W2_of_ne m ρ c main_v3 (by decide)
theorem mid_arg6 : W2 m ρ c (Proc.devRef .tc main_arg6) = W1 m ρ c (Proc.devRef .tc main_arg6) := W2_of_ne m ρ c main_arg6 (by decide)
theorem mid_arg7 : W2 m ρ c (Proc.devRef .tc main_arg7) = W1 m ρ c (Proc.devRef .tc main_arg7) := W2_of_ne m ρ c main_arg7 (by decide)
theorem mid_arg8 : W2 m ρ c (Proc.devRef .tc main_arg8) = W1 m ρ c (Proc.devRef .tc main_arg8) := W2_of_ne m ρ c main_arg8 (by decide)

/-- THE KERNEL'S RESULT: after the last segment the result's buffer holds the specification of the launch contents of
    the nine argument arrays. -/
theorem result_eq : W4 m ρ c (Proc.devRef .tc main_v35)
    = Cert.Spec.outArr (W0 m ρ c (Proc.devRef .tc main_arg0)) (W0 m ρ c (Proc.devRef .tc main_arg1))
        (W0 m ρ c (Proc.devRef .tc main_arg2)) (W0 m ρ c (Proc.devRef .tc main_arg3)) (W0 m ρ c (Proc.devRef .tc main_arg4))
        (W0 m ρ c (Proc.devRef .tc main_arg5)) (W0 m ρ c (Proc.devRef .tc main_arg6)) (W0 m ρ c (Proc.devRef .tc main_arg7))
        (W0 m ρ c (Proc.devRef .tc main_arg8)) := by
  refine (W4_arr m ρ c 6).trans ((LayerTwo.final (V3 m ρ) c).trans ?_)
  show LayerTwo.output (after (hostOps1 (F := Ideal)) (W2 m ρ c) (Proc.devRef .tc main_v33))
      (after (hostOps1 (F := Ideal)) (W2 m ρ c) (Proc.devRef .tc main_v21))
      (after (hostOps1 (F := Ideal)) (W2 m ρ c) (Proc.devRef .tc main_v23))
      (after (hostOps1 (F := Ideal)) (W2 m ρ c) (Proc.devRef .tc main_arg6))
      (after (hostOps1 (F := Ideal)) (W2 m ρ c) (Proc.devRef .tc main_arg7))
      (after (hostOps1 (F := Ideal)) (W2 m ρ c) (Proc.devRef .tc main_v34)) = _
  rw [second_numer, second_count, second_hidden, second_arg6, second_arg7, second_bias,
    mid_hidden, mid_count, mid_src, mid_dst, mid_arg6, mid_arg7, mid_arg8]
  show LayerTwo.output (Cert.Spec.numerTwo (LayerOne.hidden
        (after (hostOps0 (F := Ideal)) (W0 m ρ c) (Proc.devRef .tc main_v16))
        (after (hostOps0 (F := Ideal)) (W0 m ρ c) (Proc.devRef .tc main_v21))
        (after (hostOps0 (F := Ideal)) (W0 m ρ c) (Proc.devRef .tc main_arg0))
        (after (hostOps0 (F := Ideal)) (W0 m ρ c) (Proc.devRef .tc main_arg3))
        (after (hostOps0 (F := Ideal)) (W0 m ρ c) (Proc.devRef .tc main_arg4))
        (after (hostOps0 (F := Ideal)) (W0 m ρ c) (Proc.devRef .tc main_v22)))
        (after (hostOps0 (F := Ideal)) (W0 m ρ c) (Proc.devRef .tc main_v1))
        (after (hostOps0 (F := Ideal)) (W0 m ρ c) (Proc.devRef .tc main_v3)))
      (after (hostOps0 (F := Ideal)) (W0 m ρ c) (Proc.devRef .tc main_v21))
      (LayerOne.hidden
        (after (hostOps0 (F := Ideal)) (W0 m ρ c) (Proc.devRef .tc main_v16))
        (after (hostOps0 (F := Ideal)) (W0 m ρ c) (Proc.devRef .tc main_v21))
        (after (hostOps0 (F := Ideal)) (W0 m ρ c) (Proc.devRef .tc main_arg0))
        (after (hostOps0 (F := Ideal)) (W0 m ρ c) (Proc.devRef .tc main_arg3))
        (after (hostOps0 (F := Ideal)) (W0 m ρ c) (Proc.devRef .tc main_arg4))
        (after (hostOps0 (F := Ideal)) (W0 m ρ c) (Proc.devRef .tc main_v22)))
      (after (hostOps0 (F := Ideal)) (W0 m ρ c) (Proc.devRef .tc main_arg6))
      (after (hostOps0 (F := Ideal)) (W0 m ρ c) (Proc.devRef .tc main_arg7))
      (shapeCast S1x5 (after (hostOps0 (F := Ideal)) (W0 m ρ c) (Proc.devRef .tc main_arg8)) shapeCasts_S5_S1x5) = _
  rw [first_numer, first_count, first_bias, first_src, first_dst, first_arg0, first_arg3, first_arg4, first_arg6,
    first_arg7, first_arg8, hidden_eq, output_eq]
  rfl

end Cert.KernelIdeal.FoldValue

end
-- ==== Proof.RefHostTerms.lean ====
/-
  The reference's two layers as the host spells them.

  `hostPre`: the neighbour sums divided by the clamped counts spread over the columns, two dot_generals, the bias
  spread down the rows; `hostClamp`: the clamp at zero. `hostLogits`: the same without the clamp, five columns, on the hidden rows.
-/
import proofs.«149296_j19722489823529_2_alg».proof.Proof.RefFoldRun
import proofs.«149296_j19722489823529_2_alg».proof.Proof.Spec

set_option maxRecDepth 16384

noncomputable section

open scoped BigOperators

namespace Cert.ReferenceIdeal.Staged

open Cert.ReferenceIdeal Cert.ReferenceIdeal.Gen Cert.ReferenceIdeal.FoldRun
open Idealize.ShloMosaic Idealize.ShloMosaic.TcCoe Idealize.SL.Sem Idealize.ShloMosaic.StableHlo
open Idealize.ShloMosaic.ValueIdx Cert.MeanDense Cert.RowWise Cert.Spec

/-! ## The host's terms -/

/-- The first layer before its clamp, as the host spells it: the neighbour sums divided by the clamped counts spread
    over the columns, two dot_generals, the bias spread down the rows. -/
def hostPre (x : FVec Ideal S100000x50 .f32) (s d : (⟨S1600000, .i32⟩ : BufTy).Contents (Elt Ideal))
    (w : FVec Ideal S1600000 .f32) (wl wr : FVec Ideal S50x32 .f32) (b : FVec Ideal S32 .f32) :
    FVec Ideal S100000x32 .f32 :=
  addf
    (addf
      (Host.dotGeneral dot_S100000x50_S50x32_S100000x32_1_0_0_1_n_n none
        (Host.divf (numerOne x s d w)
          (broadcastInDim S100000x50 ![0, 1] bcast_S100000x1_S100000x50_0_1
            (broadcastInDim S100000x1 ![0] bcast_S100000_S100000x1_0
              (maximumf (count d) (broadcastInDim S100000 ![] bcast_S_S100000 (constant S_ .f32 0x3F800000#32))))))
        wl)
      (Host.dotGeneral dot_S100000x50_S50x32_S100000x32_1_0_0_1_n_n none x wr))
    (broadcastInDim S100000x32 ![0, 1] bcast_S1x32_S100000x32_0_1 (broadcastInDim S1x32 ![1] bcast_S32_S1x32_1 b))

/-- The host's clamp at zero of an [100000, 32] array. -/
def hostClamp (z : FVec Ideal S100000x32 .f32) : FVec Ideal S100000x32 .f32 :=
  maximumf z (broadcastInDim S100000x32 ![] bcast_S_S100000x32 (constant S_ .f32 0x00000000#32))

/-- The second layer before its log-softmax, as the host spells it. -/
def hostLogits (h : FVec Ideal S100000x32 .f32) (s d : (⟨S1600000, .i32⟩ : BufTy).Contents (Elt Ideal))
    (wl wr : FVec Ideal S32x5 .f32) (b : FVec Ideal S5 .f32) : FVec Ideal S100000x5 .f32 :=
  addf
    (addf
      (Host.dotGeneral dot_S100000x32_S32x5_S100000x5_1_0_0_1_n_n none
        (Host.divf (numerTwo h s d)
          (broadcastInDim S100000x32 ![0, 1] bcast_S100000x1_S100000x32_0_1
            (broadcastInDim S100000x1 ![0] bcast_S100000_S100000x1_0
              (maximumf (count d) (broadcastInDim S100000 ![] bcast_S_S100000 (constant S_ .f32 0x3F800000#32))))))
        wl)
      (Host.dotGeneral dot_S100000x32_S32x5_S100000x5_1_0_0_1_n_n none h wr))
    (broadcastInDim S100000x5 ![0, 1] bcast_S1x5_S100000x5_0_1 (broadcastInDim S1x5 ![1] bcast_S5_S1x5_1 b))

end Cert.ReferenceIdeal.Staged

end
-- ==== Proof.RefHostRows.lean ====
/-
  The host's two layers read row by row.

  At entry (r, q) the host's first layer is the clamped mean-aggregating dense entry of row r (`hostHidden_eq`), and the
  host's log-softmax of its second layer is the log-softmax of row r's five entries (`hostOut_eq`): the specification's
  two arrays.
-/
import proofs.«149296_j19722489823529_2_alg».proof.Proof.RefHostTerms

set_option maxRecDepth 16384

noncomputable section

open scoped BigOperators

namespace Cert.ReferenceIdeal.Staged

open Cert.ReferenceIdeal Cert.ReferenceIdeal.Gen Cert.ReferenceIdeal.FoldRun
open Idealize.ShloMosaic Idealize.ShloMosaic.TcCoe Idealize.SL.Sem Idealize.ShloMosaic.StableHlo
open Idealize.ShloMosaic.ValueIdx Cert.MeanDense Cert.RowWise Cert.Spec

/-- The host's first layer is the specification's, row by row. -/
theorem hostHidden_eq (x : FVec Ideal S100000x50 .f32) (s d : (⟨S1600000, .i32⟩ : BufTy).Contents (Elt Ideal))
    (w : FVec Ideal S1600000 .f32) (wl wr : FVec Ideal S50x32 .f32) (b : FVec Ideal S32 .f32) :
    hostClamp (hostPre x s d w wl wr b) = hiddenArr x s d w wl wr b := by
  funext i
  obtain ⟨r, q, rfl⟩ : ∃ (r : Fin 100000) (q : Fin 32), i = ix2 r q := ⟨i 0, i 1, eq_ix2 i⟩
  have key := hostMeanDense_apply (m := 100000) (k := 50) (n := 32) (numerOne x s d w) (count d) x wl wr b
    bcast_S_S100000 bcast_S100000_S100000x1_0 bcast_S100000x1_S100000x50_0_1 bcast_S32_S1x32_1 bcast_S1x32_S100000x32_0_1 r q
  exact (maximumf_apply _ _ (ix2 r q)).trans (congrArg (fun e => max e (Ideal.ofBits .f32 0x00000000#32)) key)

/-- The host's second layer followed by the host's log-softmax is the specification's, row by row. -/
theorem hostOut_eq (h : FVec Ideal S100000x32 .f32) (s d : (⟨S1600000, .i32⟩ : BufTy).Contents (Elt Ideal))
    (wl wr : FVec Ideal S32x5 .f32) (b : FVec Ideal S5 .f32) :
    hostLogSoftmax (m := 100000) (n := 5) bcast_S_S100000 bcast_S100000_S100000x1_0 bcast_S100000x1_S100000x5_0_1
        reducesTo_S100000x5_S100000_d1 h_S_ (hostLogits h s d wl wr b)
      = outOf h s d wl wr b := by
  funext i
  obtain ⟨r, q, rfl⟩ : ∃ (r : Fin 100000) (q : Fin 5), i = ix2 r q := ⟨i 0, i 1, eq_ix2 i⟩
  have rows : ∀ j : Fin 5, hostLogits h s d wl wr b (ix2 r j) = layerAt (numerTwo h s d) (count d) h wl wr b r j := fun j =>
    hostMeanDense_apply (m := 100000) (k := 32) (n := 5) (numerTwo h s d) (count d) h wl wr b
      bcast_S_S100000 bcast_S100000_S100000x1_0 bcast_S100000x1_S100000x32_0_1 bcast_S5_S1x5_1 bcast_S1x5_S100000x5_0_1 r j
  exact (hostLogSoftmax_apply (m := 100000) (n := 5) bcast_S_S100000 bcast_S100000_S100000x1_0 bcast_S100000x1_S100000x5_0_1
      reducesTo_S100000x5_S100000_d1 (by decide) h_S_ (hostLogits h s d wl wr b) r q).trans
    (congrArg (fun y => logSoftmaxRow y q) (funext rows))

end Cert.ReferenceIdeal.Staged

end
-- ==== Proof.RefStretchA.lean ====
/-
  The reference's operations 1–38 (the edge rows, the neighbour sums and counts, the first dense layer up to its bias)
  from any buffer contents `W`: the pre-activation's buffer ends at the host's first layer of the argument arrays `W`
  holds, the two edge-row buffers at the edge rows, and the later arguments' buffers as they were.
-/
import proofs.«149296_j19722489823529_2_alg».proof.Proof.RefHostTerms

set_option maxRecDepth 16384

noncomputable section

open scoped BigOperators

namespace Cert.ReferenceIdeal.Staged

open Cert.ReferenceIdeal Cert.ReferenceIdeal.Gen Cert.ReferenceIdeal.FoldRun
open Idealize.ShloMosaic Idealize.ShloMosaic.TcCoe Idealize.SL.Sem Idealize.ShloMosaic.StableHlo
open Idealize.ShloMosaic.ValueIdx Cert.MeanDense Cert.RowWise Cert.Spec

variable (W : Valuation τ sig (Elt Ideal))

theorem stageA_pre :
    after (opsA (F := Ideal)) W (Proc.devRef .tc main_v31)
      = hostPre (W (Proc.devRef .tc main_arg0)) (srcRow (W (Proc.devRef .tc main_arg1)))
          (dstRow (W (Proc.devRef .tc main_arg1))) (W (Proc.devRef .tc main_arg2)) (W (Proc.devRef .tc main_arg3))
          (W (Proc.devRef .tc main_arg4)) (W (Proc.devRef .tc main_arg5)) := by
  after_results_simp <;> rfl

theorem stageA_src : after (opsA (F := Ideal)) W (Proc.devRef .tc main_v1) = srcRow (W (Proc.devRef .tc main_arg1)) := by
  after_results_simp <;> rfl

theorem stageA_dst : after (opsA (F := Ideal)) W (Proc.devRef .tc main_v3) = dstRow (W (Proc.devRef .tc main_arg1)) := by
  after_results_simp <;> rfl

theorem stageA_arg6 : after (opsA (F := Ideal)) W (Proc.devRef .tc main_arg6) = W (Proc.devRef .tc main_arg6) := by
  after_results_simp <;> rfl

theorem stageA_arg7 : after (opsA (F := Ideal)) W (Proc.devRef .tc main_arg7) = W (Proc.devRef .tc main_arg7) := by
  after_results_simp <;> rfl

theorem stageA_arg8 : after (opsA (F := Ideal)) W (Proc.devRef .tc main_arg8) = W (Proc.devRef .tc main_arg8) := by
  after_results_simp <;> rfl

end Cert.ReferenceIdeal.Staged

end
-- ==== Proof.LibTypedRefCasts.lean ====
/-
  A tensor value stored into a buffer and read back is the value.

  A typed reference names a buffer together with the equation "the buffer's type is the value's type". Storing a value
  transports it along that equation and reading transports back, so reading what was stored is the identity — for any
  buffer, any type and any element interpretation, by taking the equation to be reflexivity. Rewriting with this
  removes the transports from the composed result of a line of operations on typed references before anything is
  compared definitionally.
-/
import Idealize.ShloMosaic.Lib.StableHlo

namespace Cert.LibTypedRefCasts

open Idealize.ShloMosaic Idealize.ShloMosaic.StableHlo

variable {sig : RefSig} {Val : EltTy → Type} {T : BufTy}

/-- Reading a value back through the buffer type it was stored at gives the value. -/
theorem ofBuf_toBuf (x : TRef sig T) (v : T.Contents Val) : x.ofBuf (x.toBuf v) = v := by
  obtain ⟨r, h1, h2, h3⟩ := x
  subst h1
  rfl

/-- Storing what was read through the buffer type gives it back. -/
theorem toBuf_ofBuf (x : TRef sig T) (w : x.ref.ty.Contents Val) : x.toBuf (x.ofBuf w) = w := by
  obtain ⟨r, h1, h2, h3⟩ := x
  subst h1
  rfl

end Cert.LibTypedRefCasts
-- ==== Proof.RefStretchR.lean ====
/-
  The reference's operations 39–41 (the clamp at zero, an outlined function on typed references) from any buffer
  contents `W`: the hidden rows' buffer ends at the host's clamp of the pre-activation `W` holds; the edge rows and the
  later arguments stay.
-/
import proofs.«149296_j19722489823529_2_alg».proof.Proof.RefHostTerms
import proofs.«149296_j19722489823529_2_alg».proof.Proof.LibTypedRefCasts

set_option maxRecDepth 16384

noncomputable section

open scoped BigOperators

namespace Cert.ReferenceIdeal.Staged

open Cert.ReferenceIdeal Cert.ReferenceIdeal.Gen Cert.ReferenceIdeal.FoldRun
open Idealize.ShloMosaic Idealize.ShloMosaic.TcCoe Idealize.SL.Sem Idealize.ShloMosaic.StableHlo
open Idealize.ShloMosaic.ValueIdx Cert.MeanDense Cert.RowWise Cert.Spec

variable (W : Valuation τ sig (Elt Ideal))

theorem stageR_hidden :
    after (opsR (F := Ideal)) W (Proc.devRef .tc main_v32) = hostClamp (W (Proc.devRef .tc main_v31)) := by
  after_results_simp
  simp only [Cert.LibTypedRefCasts.ofBuf_toBuf]
  rfl

theorem stageR_v1 : after (opsR (F := Ideal)) W (Proc.devRef .tc main_v1) = W (Proc.devRef .tc main_v1) := by
  after_results_simp <;> rfl

theorem stageR_v3 : after (opsR (F := Ideal)) W (Proc.devRef .tc main_v3) = W (Proc.devRef .tc main_v3) := by
  after_results_simp <;> rfl

theorem stageR_arg6 : after (opsR (F := Ideal)) W (Proc.devRef .tc main_arg6) = W (Proc.devRef .tc main_arg6) := by
  after_results_simp <;> rfl

theorem stageR_arg7 : after (opsR (F := Ideal)) W (Proc.devRef .tc main_arg7) = W (Proc.devRef .tc main_arg7) := by
  after_results_simp <;> rfl

theorem stageR_arg8 : after (opsR (F := Ideal)) W (Proc.devRef .tc main_arg8) = W (Proc.devRef .tc main_arg8) := by
  after_results_simp <;> rfl

end Cert.ReferenceIdeal.Staged

end
-- ==== Proof.RefStretchB.lean ====
/-
  The reference's operations 42–72 (the second neighbour sums, the recount, the second dense layer) from any buffer
  contents `W`: the logits' buffer ends at the host's second layer of the hidden rows, edge rows and arguments `W` holds.
-/
import proofs.«149296_j19722489823529_2_alg».proof.Proof.RefHostTerms

set_option maxRecDepth 16384

noncomputable section

open scoped BigOperators

namespace Cert.ReferenceIdeal.Staged

open Cert.ReferenceIdeal Cert.ReferenceIdeal.Gen Cert.ReferenceIdeal.FoldRun
open Idealize.ShloMosaic Idealize.ShloMosaic.TcCoe Idealize.SL.Sem Idealize.ShloMosaic.StableHlo
open Idealize.ShloMosaic.ValueIdx Cert.MeanDense Cert.RowWise Cert.Spec

variable (W : Valuation τ sig (Elt Ideal))

theorem stageB :
    after (opsB (F := Ideal)) W (Proc.devRef .tc main_v57)
      = hostLogits (W (Proc.devRef .tc main_v32)) (W (Proc.devRef .tc main_v1)) (W (Proc.devRef .tc main_v3))
          (W (Proc.devRef .tc main_arg6)) (W (Proc.devRef .tc main_arg7)) (W (Proc.devRef .tc main_arg8)) := by
  after_results_simp <;> rfl

end Cert.ReferenceIdeal.Staged

end
-- ==== Proof.RefStretchC.lean ====
/-
  The reference's operations 73–87 (the log-softmax along the rows) from any buffer contents `W`: the result's buffer
  ends at the host's log-softmax of the logits `W` holds.
-/
import proofs.«149296_j19722489823529_2_alg».proof.Proof.RefHostTerms
import proofs.«149296_j19722489823529_2_alg».proof.Proof.LibTypedRefCasts

set_option maxRecDepth 16384

noncomputable section

open scoped BigOperators

namespace Cert.ReferenceIdeal.Staged

open Cert.ReferenceIdeal Cert.ReferenceIdeal.Gen Cert.ReferenceIdeal.FoldRun
open Idealize.ShloMosaic Idealize.ShloMosaic.TcCoe Idealize.SL.Sem Idealize.ShloMosaic.StableHlo
open Idealize.ShloMosaic.ValueIdx Cert.MeanDense Cert.RowWise Cert.Spec

variable (W : Valuation τ sig (Elt Ideal))

theorem stageC :
    after (opsC (F := Ideal)) W (Proc.devRef .tc main_v58)
      = hostLogSoftmax (m := 100000) (n := 5) bcast_S_S100000 bcast_S100000_S100000x1_0 bcast_S100000x1_S100000x5_0_1
          reducesTo_S100000x5_S100000_d1 h_S_ (W (Proc.devRef .tc main_v57)) := by
  after_results_simp
  simp only [Cert.LibTypedRefCasts.ofBuf_toBuf]
  rfl

end Cert.ReferenceIdeal.Staged

end
-- ==== Proof.RefValue.lean ====
/-
  The reference's result, read in four stretches.

  The reference is a line of 87 host operations. Its result depends on the first layer's output in four places (the
  gather of neighbour rows, the second layer's own-feature product, and through them the row maximum and the sum of
  exponentials), so it is read part by part with each shared array kept as one term:
    A (operations 1–38): the edge rows, the neighbour sums and counts, the first dense layer up to its bias;
    R (operations 39–41): its clamp at zero;
    B (operations 42–72): from the hidden rows, the second neighbour sums, the recount and the second dense layer;
    C (operations 73–87): from B's output, the log-softmax along the rows.
  Each stretch's result is the host's term of what the stretch found (`stageA_*`, `stageR_*`, `stageB`, `stageC`), each host term
  is the specification's row-by-row reading (`hostHidden_eq`, `hostOut_eq`), and the four compose to `Spec.outArr`
  of the argument arrays (`result_eq`).
-/
import proofs.«149296_j19722489823529_2_alg».proof.Proof.RefHostRows
import proofs.«149296_j19722489823529_2_alg».proof.Proof.RefStretchA
import proofs.«149296_j19722489823529_2_alg».proof.Proof.RefStretchR
import proofs.«149296_j19722489823529_2_alg».proof.Proof.RefStretchB
import proofs.«149296_j19722489823529_2_alg».proof.Proof.RefStretchC

set_option maxRecDepth 16384

noncomputable section

open scoped BigOperators

namespace Cert.ReferenceIdeal.Staged

open Cert.ReferenceIdeal Cert.ReferenceIdeal.Gen Cert.ReferenceIdeal.FoldRun
open Idealize.ShloMosaic Idealize.ShloMosaic.TcCoe Idealize.SL.Sem Idealize.ShloMosaic.StableHlo
open Idealize.ShloMosaic.ValueIdx Cert.MeanDense Cert.RowWise Cert.Spec

/-! ## The three stretches -/

theorem ops_split : ops (F := Ideal)
    = opsA (F := Ideal) ++ (opsR (F := Ideal) ++ (opsB (F := Ideal) ++ opsC (F := Ideal))) := ops_parts

/-- The whole line from `W` is C from what B leaves of what the clamp leaves of what A leaves of `W`. -/
theorem after_split (W : Valuation τ sig (Elt Ideal)) :
    after (ops (F := Ideal)) W
      = after (opsC (F := Ideal)) (after (opsB (F := Ideal)) (after (opsR (F := Ideal)) (after (opsA (F := Ideal)) W))) :=
  (congrArg (fun l => after l W) ops_split).trans
    ((after_append (opsA (F := Ideal)) (opsR (F := Ideal) ++ (opsB (F := Ideal) ++ opsC (F := Ideal))) W).trans
      ((after_append (opsR (F := Ideal)) (opsB (F := Ideal) ++ opsC (F := Ideal)) _).trans
        (after_append (opsB (F := Ideal)) (opsC (F := Ideal)) _)))

variable (W : Valuation τ sig (Elt Ideal))

/-- THE REFERENCE'S RESULT: the fold of the 87 operations over `W`, at the result's buffer, is the specification of the
    argument arrays `W` holds. -/
theorem result_eq :
    after (ops (F := Ideal)) W (Proc.devRef .tc main_v58)
      = outArr (W (Proc.devRef .tc main_arg0)) (W (Proc.devRef .tc main_arg1)) (W (Proc.devRef .tc main_arg2))
          (W (Proc.devRef .tc main_arg3)) (W (Proc.devRef .tc main_arg4)) (W (Proc.devRef .tc main_arg5))
          (W (Proc.devRef .tc main_arg6)) (W (Proc.devRef .tc main_arg7)) (W (Proc.devRef .tc main_arg8)) := by
  rw [after_split, stageC, stageB, stageR_hidden, stageR_v1, stageR_v3, stageR_arg6, stageR_arg7, stageR_arg8,
    stageA_pre, stageA_src, stageA_dst, stageA_arg6, stageA_arg7, stageA_arg8, hostHidden_eq, hostOut_eq]
  rfl

end Cert.ReferenceIdeal.Staged

end
-- ==== Proof.lean ====
/-
  A two-layer graph convolution against its jnp reference, on the extended reals.

  Both programs aggregate, for every one of 100000 nodes, the features of its in-neighbours over 1600000 edges by a
  gather and a scatter-add, divide by the in-degree clamped at one, apply a dense layer
  agg · W_rel + x · W_root + b, clamp at zero, aggregate the hidden rows the same way, apply a second dense layer and
  take the log-softmax of each row. The kernel does the two dense layers (and the clamp, and the log-softmax) in two
  pallas_calls over ten blocks of 10000 rows, with its matrix products taken on operands narrowed to bf16; the
  reference does everything with host operations on whole arrays. On the extended reals narrowing is the identity, a
  block computes its rows of the whole array, and the two spellings of each step are one function of the rows, so both
  results are `Cert.Spec.outArr` of the nine argument arrays: no law of arithmetic beyond that is used, and the
  finiteness of the inputs is never opened.

  The pieces: ResultRun (the kernel's run with the result's buffer named), KernelValue (that buffer's contents are the
  specification), RefFoldRun (the reference's run, its result as the fold of its operations), RefValue (that fold is
  the specification). The three frames are the generated ones (the reference's: its run with the result dropped);
  the ideal pass rewrote nothing, so the preservation claim is trivial.
-/
import proofs.«149296_j19722489823529_2_alg».proof.Defs
import proofs.«149296_j19722489823529_2_alg».proof.Proof.Gen.Kernel
import proofs.«149296_j19722489823529_2_alg».proof.Proof.Gen.Kernel.Skeleton
import proofs.«149296_j19722489823529_2_alg».proof.Proof.Gen.Kernel.Launch
import proofs.«149296_j19722489823529_2_alg».proof.Proof.Gen.Kernel.Points
import proofs.«149296_j19722489823529_2_alg».proof.Proof.Gen.Kernel.Frame
import proofs.«149296_j19722489823529_2_alg».proof.Proof.Gen.KernelIdeal
import proofs.«149296_j19722489823529_2_alg».proof.Proof.Gen.KernelIdeal.Skeleton
import proofs.«149296_j19722489823529_2_alg».proof.Proof.Gen.KernelIdeal.Launch
import proofs.«149296_j19722489823529_2_alg».proof.Proof.Gen.KernelIdeal.Points
import proofs.«149296_j19722489823529_2_alg».proof.Proof.Gen.KernelIdeal.Frame
import proofs.«149296_j19722489823529_2_alg».proof.Proof.Gen.ReferenceIdeal
import proofs.«149296_j19722489823529_2_alg».proof.Proof.Gen.Pre_finite_inputs
import proofs.«149296_j19722489823529_2_alg».proof.Proof.ResultRun
import proofs.«149296_j19722489823529_2_alg».proof.Proof.KernelValue
import proofs.«149296_j19722489823529_2_alg».proof.Proof.RefFoldRun
import proofs.«149296_j19722489823529_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.FoldRun.run (F := Ideal) m ρ)

/-- The ideal pass rewrote no operation. -/
theorem preserves : Cert.preserves_Kernel_KernelIdeal := trivial

/-- From memories agreeing on the nine arguments both programs end with the specification of those arguments in their
    result arrays. -/
theorem algebraic : Cert.algebraic_KernelIdeal_ReferenceIdeal := by
  intro m ρ m' ρ' _ hagree
  refine ⟨_, Cert.KernelIdeal.ResultRun.run_result (F := Ideal) m ρ, ?_⟩
  refine (θ_run Cert.ReferenceIdeal.defs _ _).mono (fun _ h c => ⟨(h c).1.trans ?_, (h c).2⟩)
    (Cert.ReferenceIdeal.FoldRun.run (F := Ideal) m' ρ')
  obtain ⟨h0, h1, h2, h3, h4, h5, h6, h7, h8⟩ := hagree c
  refine (Cert.ReferenceIdeal.Staged.result_eq _).trans (Eq.trans ?_ (Cert.KernelIdeal.FoldValue.result_eq m ρ c).symm)
  show Cert.Spec.outArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) = _
  rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
